-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part5 {F : FTy → Type} [FloatOps F] (main_arg18 : FVec F S2048 .f32) (main_v83 : IVec S_ 1) (main_v84 : FVec F S2048x2048 .f32) (main_cst_32 : FVec F S_ .f32) : IVec S_ 1 :=
  let main_v85 : FVec F S2048x2048 .f32 := broadcastInDim S2048x2048 ![] bcast_S_S2048x2048 main_cst_32
  let main_v86 : IVec S2048x2048 1 := cmpf .olt main_v84 main_v85
  let main_c_33 : IVec S_ 1 := constantI S_ 1 1#1
  let main_v87 : IVec S_ 1 := (fun x v => Host.reduce IntOp.andi x v reducesTo_S2048x2048_S_d0_1 h_S_) main_v86 main_c_33
  let main_v88 : IVec S_ 1 := andi main_v83 main_v87
  let main_v89 : FVec F S2048 .f32 := Host.absf main_arg18
  let main_cst_34 : FVec F S_ .f32 := constant S_ .f32 0x7F800000#32
  let main_v90 : FVec F S2048 .f32 := broadcastInDim S2048 ![] bcast_S_S2048 main_cst_34
  let main_v91 : IVec S2048 1 := cmpf .olt main_v89 main_v90
  let main_c_35 : IVec S_ 1 := constantI S_ 1 1#1
  let main_v92 : IVec S_ 1 := (fun x v => Host.reduce IntOp.andi x v reducesTo_S2048_S_d0 h_S_) main_v91 main_c_35
  let main_v93 : IVec S_ 1 := andi main_v88 main_v92
  main_v93

def fn_part4 {F : FTy → Type} [FloatOps F] (main_arg14 : FVec F S2048 .f32) (main_arg15 : FVec F S2048x2048 .f32) (main_arg16 : FVec F S2048 .f32) (main_arg17 : FVec F S2048x2048 .f32) (main_arg18 : FVec F S2048 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  let main_v74 : FVec F S2048x2048 .f32 := Host.absf main_arg15
  let main_cst_28 : FVec F S_ .f32 := constant S_ .f32 0x7F800000#32
  let main_v75 : FVec F S2048x2048 .f32 := broadcastInDim S2048x2048 ![] bcast_S_S2048x2048 main_cst_28
  let main_v76 : IVec S2048x2048 1 := cmpf .olt main_v74 main_v75
  let main_c_29 : IVec S_ 1 := constantI S_ 1 1#1
  let main_v77 : IVec S_ 1 := (fun x v => Host.reduce IntOp.andi x v reducesTo_S2048x2048_S_d0_1 h_S_) main_v76 main_c_29
  let main_v78 : IVec S_ 1 := andi main_v73 main_v77
  let main_v79 : FVec F S2048 .f32 := Host.absf main_arg16
  let main_cst_30 : FVec F S_ .f32 := constant S_ .f32 0x7F800000#32
  let main_v80 : FVec F S2048 .f32 := broadcastInDim S2048 ![] bcast_S_S2048 main_cst_30
  let main_v81 : IVec S2048 1 := cmpf .olt main_v79 main_v80
  let main_c_31 : IVec S_ 1 := constantI S_ 1 1#1
  let main_v82 : IVec S_ 1 := (fun x v => Host.reduce IntOp.andi x v reducesTo_S2048_S_d0 h_S_) main_v81 main_c_31
  let main_v83 : IVec S_ 1 := andi main_v78 main_v82
  let main_v84 : FVec F S2048x2048 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x2048 .f32 := Host.absf main_arg11
  let main_cst_20 : FVec F S_ .f32 := constant S_ .f32 0x7F800000#32
  let main_v55 : FVec F S2048x2048 .f32 := broadcastInDim S2048x2048 ![] bcast_S_S2048x2048 main_cst_20
  let main_v56 : IVec S2048x2048 1 := cmpf .olt main_v54 main_v55
  let main_c_21 : IVec S_ 1 := constantI S_ 1 1#1
  let main_v57 : IVec S_ 1 := (fun x v => Host.reduce IntOp.andi x v reducesTo_S2048x2048_S_d0_1 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048x2048 .f32 := Host.absf main_arg13
  let main_cst_24 : FVec F S_ .f32 := constant S_ .f32 0x7F800000#32
  let main_v65 : FVec F S2048x2048 .f32 := broadcastInDim S2048x2048 ![] bcast_S_S2048x2048 main_cst_24
  let main_v66 : IVec S2048x2048 1 := cmpf .olt main_v64 main_v65
  let main_c_25 : IVec S_ 1 := constantI S_ 1 1#1
  let main_v67 : IVec S_ 1 := (fun x v => Host.reduce IntOp.andi x v reducesTo_S2048x2048_S_d0_1 h_S_) main_v66 main_c_25
  fn_part4 (F := F) main_arg14 main_arg15 main_arg16 main_arg17 main_arg18 main_v63 main_v67

def fn_part2 {F : FTy → Type} [FloatOps F] (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_arg14 main_arg15 main_arg16 main_arg17 main_arg18 main_v48 main_v49 main_v50

def fn_part1 {F : FTy → Type} [FloatOps F] (main_arg4 : FVec F S2048 .f32) (main_arg5 : FVec F S2048x2048 .f32) (main_arg6 : FVec F S2048 .f32) (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S4096x2048 .f32) (main_arg1 : FVec F S4096x2048 .f32) (main_arg2 : FVec F S4096x2048 .f32) (main_arg3 : FVec F S2048x2048 .f32) (main_arg4 : FVec F S2048 .f32) (main_arg5 : FVec F S2048x2048 .f32) (main_arg6 : FVec F S2048 .f32) (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512x256 : Shape := ⟨2, ![512, 256]⟩
abbrev S256x2048 : Shape := ⟨2, ![256, 2048]⟩
abbrev S1x256 : Shape := ⟨2, ![1, 256]⟩

abbrev nBuf : Space → Nat
  | .hbm => 39
  | .vmem => 34
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2048x2048, .f32⟩
  | .hbm, ⟨12, _⟩ => ⟨S2048, .f32⟩
  | .hbm, ⟨13, _⟩ => ⟨S2048x2048, .f32⟩
  | .hbm, ⟨14, _⟩ => ⟨S2048, .f32⟩
  | .hbm, ⟨15, _⟩ => ⟨S2048x2048, .f32⟩
  | .hbm, ⟨16, _⟩ => ⟨S2048, .f32⟩
  | .hbm, ⟨17, _⟩ => ⟨S2048x2048, .f32⟩
  | .hbm, ⟨18, _⟩ => ⟨S2048, .f32⟩
  | .hbm, ⟨19, _⟩ => ⟨S4096x2048, .bf16⟩
  | .hbm, ⟨20, _⟩ => ⟨S4096x2048, .bf16⟩
  | .hbm, ⟨21, _⟩ => ⟨S2048x2048, .bf16⟩
  | .hbm, ⟨22, _⟩ => ⟨S2048x2048, .bf16⟩
  | .hbm, ⟨23, _⟩ => ⟨S2048x2048, .bf16⟩
  | .hbm, ⟨24, _⟩ => ⟨S2048x2048, .bf16⟩
  | .hbm, ⟨25, _⟩ => ⟨S2048x2048, .bf16⟩
  | .hbm, ⟨26, _⟩ => ⟨S2048x2048, .bf16⟩
  | .hbm, ⟨27, _⟩ => ⟨S2048x2048, .bf16⟩
  | .hbm, ⟨28, _⟩ => ⟨S2048x2048, .bf16⟩
  | .hbm, ⟨29, _⟩ => ⟨S2048, .f32⟩
  | .hbm, ⟨30, _⟩ => ⟨S1x2048, .f32⟩
  | .hbm, ⟨31, _⟩ => ⟨S2048, .f32⟩
  | .hbm, ⟨32, _⟩ => ⟨S1x2048, .f32⟩
  | .hbm, ⟨33, _⟩ => ⟨S2048, .f32⟩
  | .hbm, ⟨34, _⟩ => ⟨S1x2048, .f32⟩
  | .hbm, ⟨35, _⟩ => ⟨S2048, .f32⟩
  | .hbm, ⟨36, _⟩ => ⟨S1x2048, .f32⟩
  | .hbm, ⟨37, _⟩ => ⟨S4096x2048, .f32⟩
  | .hbm, ⟨38, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x256, .f32⟩
  | .local _ .vmem, ⟨5, _⟩ => ⟨S512x256, .f32⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S1x256, .f32⟩
  | .local _ .vmem, ⟨11, _⟩ => ⟨S1x256, .f32⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S1x256, .f32⟩
  | .local _ .vmem, ⟨17, _⟩ => ⟨S1x256, .f32⟩
  | .local _ .vmem, ⟨18, _⟩ => ⟨S256x2048, .bf16⟩
  | .local _ .vmem, ⟨19, _⟩ => ⟨S256x2048, .bf16⟩
  | .local _ .vmem, ⟨20, _⟩ => ⟨S256x2048, .bf16⟩
  | .local _ .vmem, ⟨21, _⟩ => ⟨S256x2048, .bf16⟩
  | .local _ .vmem, ⟨22, _⟩ => ⟨S1x256, .f32⟩
  | .local _ .vmem, ⟨23, _⟩ => ⟨S1x256, .f32⟩
  | .local _ .vmem, ⟨24, _⟩ => ⟨S256x2048, .bf16⟩
  | .local _ .vmem, ⟨25, _⟩ => ⟨S256x2048, .bf16⟩
  | .local _ .vmem, ⟨26, _⟩ => ⟨S256x2048, .bf16⟩
  | .local _ .vmem, ⟨27, _⟩ => ⟨S256x2048, .bf16⟩
  | .local _ .vmem, ⟨28, _⟩ => ⟨S1x256, .f32⟩
  | .local _ .vmem, ⟨29, _⟩ => ⟨S1x256, .f32⟩
  | .local _ .vmem, ⟨30, _⟩ => ⟨S512x256, .f32⟩
  | .local _ .vmem, ⟨31, _⟩ => ⟨S512x256, .f32⟩
  | .local _ .vmem, ⟨32, _⟩ => ⟨S512x256, .f32⟩
  | .local _ .vmem, ⟨33, _⟩ => ⟨S512x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18_0 : Ref sig .tc := ⟨.hbm, 37, rfl⟩
abbrev main_v18_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

class Facts₀ : Prop where
  bitsLt_bf16_f32 : FTy.bits .bf16 < FTy.bits .f32
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x256_S512x256_0_0 : ∀ a, (![0, 0] : Fin 2 → Nat) a + S512x256.size a ≤ S512x256.size a
  h_S512x256 : 0 < S512x256.numel
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  dot_S512x2048_S256x2048_S512x256_1_1_0_0_n_n_wf : DotDims.WF S512x2048 S256x2048 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .bf16 = 32 ∨ (Rect.block (s := S4096x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x2048.size a
  hwx0_2 : ∀ i : grid0.Coords, EltTy.bits .f32 = 32 ∨ (Rect.block (s := S4096x2048) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S2048x2048.size a
  hwx0_3 : ∀ i : grid0.Coords, EltTy.bits .bf16 = 32 ∨ (Rect.block (s := S2048x2048) S256x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S2048x2048.size a
  hwx0_4 : ∀ i : grid0.Coords, EltTy.bits .bf16 = 32 ∨ (Rect.block (s := S2048x2048) S256x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x2048.size a
  hwx0_5 : ∀ i : grid0.Coords, EltTy.bits .f32 = 32 ∨ (Rect.block (s := S1x2048) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S2048x2048.size a
  hwx0_6 : ∀ i : grid0.Coords, EltTy.bits .bf16 = 32 ∨ (Rect.block (s := S2048x2048) S256x2048.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S2048x2048.size a
  hwx0_7 : ∀ i : grid0.Coords, EltTy.bits .bf16 = 32 ∨ (Rect.block (s := S2048x2048) S256x2048.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x2048.size a
  hwx0_8 : ∀ i : grid0.Coords, EltTy.bits .f32 = 32 ∨ (Rect.block (s := S1x2048) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x2048.size a ≤ S2048x2048.size a
  hwx0_9 : ∀ i : grid0.Coords, EltTy.bits .bf16 = 32 ∨ (Rect.block (s := S2048x2048) S256x2048.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x2048.size a ≤ S2048x2048.size a
  hwx0_10 : ∀ i : grid0.Coords, EltTy.bits .bf16 = 32 ∨ (Rect.block (s := S2048x2048) S256x2048.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x2048.size a
  hwx0_11 : ∀ i : grid0.Coords, EltTy.bits .f32 = 32 ∨ (Rect.block (s := S1x2048) S1x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x2048.size a ≤ S2048x2048.size a
  hwx0_12 : ∀ i : grid0.Coords, EltTy.bits .bf16 = 32 ∨ (Rect.block (s := S2048x2048) S256x2048.size (cc0_transform_12 i) (hinb0_12 i)).WholeWords (EltTy.packing .bf16)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x2048.size a ≤ S2048x2048.size a
  hwx0_13 : ∀ i : grid0.Coords, EltTy.bits .bf16 = 32 ∨ (Rect.block (s := S2048x2048) S256x2048.size (cc0_transform_13 i) (hinb0_13 i)).WholeWords (EltTy.packing .bf16)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x2048.size a
  hwx0_14 : ∀ i : grid0.Coords, EltTy.bits .f32 = 32 ∨ (Rect.block (s := S1x2048) S1x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x256.size a ≤ S4096x2048.size a
  hwx0_15 : ∀ i : grid0.Coords, EltTy.bits .f32 = 32 ∨ (Rect.block (s := S4096x2048) S512x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S512x256.size a ≤ S4096x2048.size a
  hwx0_16 : ∀ i : grid0.Coords, EltTy.bits .f32 = 32 ∨ (Rect.block (s := S4096x2048) S512x256.size (cc0_transform_16 i) (hinb0_16 i)).WholeWords (EltTy.packing .f32)

variable [Facts₀]

def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S256x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5) S256x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6) S256x2048.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v7) S256x2048.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v15) S1x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v8) S256x2048.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v9) S256x2048.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v17) S1x256.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v18_0) S512x256.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v18_1) S512x256.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩

abbrev nBuf : Space → Nat
  | .hbm => 93
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2048x2048, .f32⟩
  | .hbm, ⟨12, _⟩ => ⟨S2048, .f32⟩
  | .hbm, ⟨13, _⟩ => ⟨S2048x2048, .f32⟩
  | .hbm, ⟨14, _⟩ => ⟨S2048, .f32⟩
  | .hbm, ⟨15, _⟩ => ⟨S2048x2048, .f32⟩
  | .hbm, ⟨16, _⟩ => ⟨S2048, .f32⟩
  | .hbm, ⟨17, _⟩ => ⟨S2048x2048, .f32⟩
  | .hbm, ⟨18, _⟩ => ⟨S2048, .f32⟩
  | .hbm, ⟨19, _⟩ => ⟨S2048x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S2048x2048, .f32⟩
  | .hbm, ⟨25, _⟩ => ⟨S4096x2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S2048x2048, .f32⟩
  | .hbm, ⟨32, _⟩ => ⟨S4096x2048, .f32⟩
  | .hbm, ⟨33, _⟩ => ⟨S1x2048, .f32⟩
  | .hbm, ⟨34, _⟩ => ⟨S4096x2048, .f32⟩
  | .hbm, ⟨35, _⟩ => ⟨S4096x2048, .f32⟩
  | .hbm, ⟨36, _⟩ => ⟨S2048x2048, .f32⟩
  | .hbm, ⟨37, _⟩ => ⟨S4096x2048, .f32⟩
  | .hbm, ⟨38, _⟩ => ⟨S1x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S4096x2048, .f32⟩
  | .hbm, ⟨49, _⟩ => ⟨S4096x2048, .f32⟩
  | .hbm, ⟨50, _⟩ => ⟨S2048x2048, .f32⟩
  | .hbm, ⟨51, _⟩ => ⟨S4096x2048, .f32⟩
  | .hbm, ⟨52, _⟩ => ⟨S1x2048, .f32⟩
  | .hbm, ⟨53, _⟩ => ⟨S4096x2048, .f32⟩
  | .hbm, ⟨54, _⟩ => ⟨S4096x2048, .f32⟩
  | .hbm, ⟨55, _⟩ => ⟨S2048x2048, .f32⟩
  | .hbm, ⟨56, _⟩ => ⟨S4096x2048, .f32⟩
  | .hbm, ⟨57, _⟩ => ⟨S1x2048, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S4096x2048, .f32⟩
  | .hbm, ⟨62, _⟩ => ⟨S4096x2048, .f32⟩
  | .hbm, ⟨63, _⟩ => ⟨S_, .f32⟩
  | .hbm, ⟨64, _⟩ => ⟨S4096x2048, .f32⟩
  | .hbm, ⟨65, _⟩ => ⟨S4096x2048, .f32⟩
  | .hbm, ⟨66, _⟩ => ⟨S_, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S2048x2048, .f32⟩
  | .hbm, ⟨73, _⟩ => ⟨S4096x2048, .f32⟩
  | .hbm, ⟨74, _⟩ => ⟨S1x2048, .f32⟩
  | .hbm, ⟨75, _⟩ => ⟨S4096x2048, .f32⟩
  | .hbm, ⟨76, _⟩ => ⟨S4096x2048, .f32⟩
  | .hbm, ⟨77, _⟩ => ⟨S2048x2048, .f32⟩
  | .hbm, ⟨78, _⟩ => ⟨S4096x2048, .f32⟩
  | .hbm, ⟨79, _⟩ => ⟨S1x2048, .f32⟩
  | .hbm, ⟨80, _⟩ => ⟨S4096x2048, .f32⟩
  | .hbm, ⟨81, _⟩ => ⟨S4096x2048, .f32⟩
  | .hbm, ⟨82, _⟩ => ⟨S4096x2048, .f32⟩
  | .hbm, ⟨83, _⟩ => ⟨S4096x2048, .f32⟩
  | .hbm, ⟨84, _⟩ => ⟨S4096x2048, .f32⟩
  | .hbm, ⟨85, _⟩ => ⟨S_, .f32⟩
  | .hbm, ⟨86, _⟩ => ⟨S4096x2048, .f32⟩
  | .hbm, ⟨87, _⟩ => ⟨S4096x2048, .f32⟩
  | .hbm, ⟨88, _⟩ => ⟨S_, .f32⟩
  | .hbm, ⟨89, _⟩ => ⟨S4096x2048, .f32⟩
  | .hbm, ⟨90, _⟩ => ⟨S4096x2048, .f32⟩
  | .hbm, ⟨91, _⟩ => ⟨S4096x2048, .f32⟩
  | .hbm, ⟨92, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst : Ref sig .tc := ⟨.hbm, 44, rfl⟩
abbrev main_v25 : Ref sig .tc := ⟨.hbm, 45, rfl⟩
abbrev main_v26 : Ref sig .tc := ⟨.hbm, 46, rfl⟩
abbrev main_cst_0 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_1 : Ref sig .tc := ⟨.hbm, 63, rfl⟩
abbrev main_v42 : Ref sig .tc := ⟨.hbm, 64, rfl⟩
abbrev main_v43 : Ref sig .tc := ⟨.hbm, 65, rfl⟩
abbrev main_cst_2 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_3 : Ref sig .tc := ⟨.hbm, 85, rfl⟩
abbrev main_v62 : Ref sig .tc := ⟨.hbm, 86, rfl⟩
abbrev main_v63 : Ref sig .tc := ⟨.hbm, 87, rfl⟩
abbrev main_cst_4 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩

abbrev nD : Nat := 1
abbrev τ : Topo := Topo.v7x

variable {F : FTy → Type} [FloatOps F]

class Facts₀ : Prop where
  transposes_S2048x2048_S2048x2048_1_0 : S2048x2048.Transposes [1, 0] S2048x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  dot_S4096x2048_S2048x2048_S4096x2048_1_0_0_1_n_n_wf : DotDims.WF S4096x2048 S2048x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.LstmSpec.lean ====
/-
  The LSTM cell this certificate is about, as ONE function of the nineteen argument arrays, index by index, on
  the extended reals.

  For a batch row `a` and a hidden column `b`, a gate's pre-activation is
      pre x h Wx Wh bx bh a b = (Σₖ x[a,k]·Wx[b,k] + Σₖ h[a,k]·Wh[b,k]) + (bx[b] + bh[b]):
  the input row against the gate's input weights' row `b`, the previous hidden row against its recurrent weights'
  row `b` (both weight matrices are contracted along their SECOND axis: `x @ Wᵀ`), and the two biases. With σ the
  logistic function `v ↦ 1 / (1 + e⁻ᵛ)`, the new cell state is
      c'[a,b] = σ(f)·c[a,b] + σ(i)·tanh(g)
  and the new hidden state
      h'[a,b] = σ(o)·tanh(c'[a,b]),
  where g, i, f, o are the pre-activations of the four gates.

  One program adds the two products first and the two biases after; the other adds each bias to its own product and
  then the two sums. The two arrangements are one extended real because addition there is commutative and
  associative with no side condition (`pre_of_two_linears`); nothing here needs an entry to be finite.

  The same formulas are also stated on one [512, 256] tile of the result (`preB`, `cellB`, `hiddenB`): a tile of 512
  batch rows and 256 hidden columns needs the 512 input and hidden rows whole, the 256 weight rows of each matrix
  whole, and the 256 bias entries, already added, as a one-row array. `cellB_eq` / `hiddenB_eq` say: if each tile
  entry is the corresponding entry of the whole arrays, the tile's value at `(p, q)` is the whole function's at the
  matching `(a, b)`.
-/
import Idealize.ShloMosaic.PureOps.Ideal
import Idealize.ShloMosaic.PureOps.Ideal.Laws
import Idealize.ShloMosaic.Lib.ValueIdx

noncomputable section

open Idealize.ShloMosaic Idealize.ShloMosaic.ValueIdx
open scoped BigOperators

namespace Cert.Lstm

/-! ## The whole arrays -/

/-- A [4096, 2048] array of extended reals: the input, the hidden state, the cell state, a result. -/
abbrev Act := (⟨2, ![4096, 2048]⟩ : Shape).Idx → EReal
/-- A [2048, 2048] weight matrix, one row per hidden column. -/
abbrev Wgt := (⟨2, ![2048, 2048]⟩ : Shape).Idx → EReal
/-- A [2048] bias. -/
abbrev Bias := (⟨1, ![2048]⟩ : Shape).Idx → EReal

/-- One gate before its nonlinearity, at row `a` and column `b`: both products, then both biases. -/
def pre (x h : Act) (Wx Wh : Wgt) (bx bh : Bias) (a : Fin 4096) (b : Fin 2048) : EReal :=
  ((∑ k : Fin 2048, x (ix2 a k) * Wx (ix2 b k)) + ∑ k : Fin 2048, h (ix2 a k) * Wh (ix2 b k))
    + (bx (ix1 b) + bh (ix1 b))

/-- The other arrangement — each product with its own bias, then the two sums — is the same extended real:
    `(s + u) + (t + v) = (s + t) + (u + v)` holds in every commutative additive monoid. -/
theorem pre_of_two_linears (x h : Act) (Wx Wh : Wgt) (bx bh : Bias) (a : Fin 4096) (b : Fin 2048) :
    ((∑ k : Fin 2048, x (ix2 a k) * Wx (ix2 b k)) + bx (ix1 b))
      + ((∑ k : Fin 2048, h (ix2 a k) * Wh (ix2 b k)) + bh (ix1 b))
    = pre x h Wx Wh bx bh a b := by
  unfold pre
  exact add_add_add_comm _ _ _ _

/-- The new cell state: forget gate times the old cell state, plus input gate times the candidate. -/
def cell (x h c : Act) (Wgx : Wgt) (bgx : Bias) (Wgh : Wgt) (bgh : Bias) (Wix : Wgt) (bix : Bias) (Wih : Wgt) (bih : Bias)
    (Wfx : Wgt) (bfx : Bias) (Wfh : Wgt) (bfh : Bias) (a : Fin 4096) (b : Fin 2048) : EReal :=
  Ideal.logistic (pre x h Wfx Wfh bfx bfh a b) * c (ix2 a b)
    + Ideal.logistic (pre x h Wix Wih bix bih a b) * Ideal.tanh (pre x h Wgx Wgh bgx bgh a b)

/-- The new hidden state: output gate times tanh of the new cell state. -/
def hidden (x h c : Act) (Wgx : Wgt) (bgx : Bias) (Wgh : Wgt) (bgh : Bias) (Wix : Wgt) (bix : Bias) (Wih : Wgt) (bih : Bias)
    (Wfx : Wgt) (bfx : Bias) (Wfh : Wgt) (bfh : Bias) (Wox : Wgt) (box : Bias) (Woh : Wgt) (boh : Bias)
    (a : Fin 4096) (b : Fin 2048) : EReal :=
  Ideal.logistic (pre x h Wox Woh box boh a b)
    * Ideal.tanh (cell x h c Wgx bgx Wgh bgh Wix bix Wih bih Wfx bfx Wfh bfh a b)

/-- The new cell state as an array. -/
def cellArr (x h c : Act) (Wgx : Wgt) (bgx : Bias) (Wgh : Wgt) (bgh : Bias) (Wix : Wgt) (bix : Bias) (Wih : Wgt) (bih : Bias)
    (Wfx : Wgt) (bfx : Bias) (Wfh : Wgt) (bfh : Bias) : Act :=
  fun i => cell x h c Wgx bgx Wgh bgh Wix bix Wih bih Wfx bfx Wfh bfh (i 0) (i 1)

/-- The new hidden state as an array. -/
def hiddenArr (x h c : Act) (Wgx : Wgt) (bgx : Bias) (Wgh : Wgt) (bgh : Bias) (Wix : Wgt) (bix : Bias) (Wih : Wgt) (bih : Bias)
    (Wfx : Wgt) (bfx : Bias) (Wfh : Wgt) (bfh : Bias) (Wox : Wgt) (box : Bias) (Woh : Wgt) (boh : Bias) : Act :=
  fun i => hidden x h c Wgx bgx Wgh bgh Wix bix Wih bih Wfx bfx Wfh bfh Wox box Woh boh (i 0) (i 1)

theorem cellArr_apply (x h c : Act) (Wgx : Wgt) (bgx : Bias) (Wgh : Wgt) (bgh : Bias) (Wix : Wgt) (bix : Bias) (Wih : Wgt)
    (bih : Bias) (Wfx : Wgt) (bfx : Bias) (Wfh : Wgt) (bfh : Bias) (a : Fin 4096) (b : Fin 2048) :
    cellArr x h c Wgx bgx Wgh bgh Wix bix Wih bih Wfx bfx Wfh bfh (ix2 a b)
      = cell x h c Wgx bgx Wgh bgh Wix bix Wih bih Wfx bfx Wfh bfh a b := rfl

theorem hiddenArr_apply (x h c : Act) (Wgx : Wgt) (bgx : Bias) (Wgh : Wgt) (bgh : Bias) (Wix : Wgt) (bix : Bias) (Wih : Wgt)
    (bih : Bias) (Wfx : Wgt) (bfx : Bias) (Wfh : Wgt) (bfh : Bias) (Wox : Wgt) (box : Bias) (Woh : Wgt) (boh : Bias)
    (a : Fin 4096) (b : Fin 2048) :
    hiddenArr x h c Wgx bgx Wgh bgh Wix bix Wih bih Wfx bfx Wfh bfh Wox box Woh boh (ix2 a b)
      = hidden x h c Wgx bgx Wgh bgh Wix bix Wih bih Wfx bfx Wfh bfh Wox box Woh boh a b := rfl

/-! ## The logistic function spelt out -/

/-- The word of `1.0`: sign 0, exponent 127, fraction 0, that is `2²³ · 2⁻²³`. -/
theorem ofBits_one_f32 : Ideal.ofBits .f32 0x3F800000#32 = 1 := by
  simp [Ideal.ofBits, Ideal.ieee, -EReal.coe_mul]
  norm_num

/-- `1 / (1 + e⁻ᵛ)` written with the word of `1.0`, a negation, an exponential, a sum and a quotient IS the logistic
    function: that is its definition on the extended reals. -/
theorem logistic_spelt_out (v : EReal) :
    Ideal.div (Ideal.ofBits .f32 0x3F800000#32) (Ideal.ofBits .f32 0x3F800000#32 + Ideal.exp (-v)) = Ideal.logistic v := by
  rw [ofBits_one_f32]
  rfl

/-! ## One [512, 256] tile -/

/-- 512 rows of the input or of the hidden state, whole. -/
abbrev ActB := (⟨2, ![512, 2048]⟩ : Shape).Idx → EReal
/-- 256 rows of a weight matrix, whole. -/
abbrev WgtB := (⟨2, ![256, 2048]⟩ : Shape).Idx → EReal
/-- 256 entries of a gate's two biases, already added, as one row. -/
abbrev BiasB := (⟨2, ![1, 256]⟩ : Shape).Idx → EReal
/-- A tile of the cell state or of a result. -/
abbrev OutB := (⟨2, ![512, 256]⟩ : Shape).Idx → EReal

/-- A gate's pre-activation on the tile, at row `p` and column `q` of the tile. -/
def preB (X H : ActB) (Wx Wh : WgtB) (bb : BiasB) (p : Fin 512) (q : Fin 256) : EReal :=
  ((∑ k : Fin 2048, X (ix2 p k) * Wx (ix2 q k)) + ∑ k : Fin 2048, H (ix2 p k) * Wh (ix2 q k))
    + bb (ix2 (0 : Fin 1) q)

/-- The new cell state on the tile. -/
def cellB (X H : ActB) (C : OutB) (Wgx Wgh : WgtB) (bg : BiasB) (Wix Wih : WgtB) (bi : BiasB) (Wfx Wfh : WgtB) (bf : BiasB)
    (p : Fin 512) (q : Fin 256) : EReal :=
  Ideal.logistic (preB X H Wfx Wfh bf p q) * C (ix2 p q)
    + Ideal.logistic (preB X H Wix Wih bi p q) * Ideal.tanh (preB X H Wgx Wgh bg p q)

/-- The new hidden state on the tile. -/
def hiddenB (X H : ActB) (C : OutB) (Wgx Wgh : WgtB) (bg : BiasB) (Wix Wih : WgtB) (bi : BiasB) (Wfx Wfh : WgtB) (bf : BiasB)
    (Wox Woh : WgtB) (bo : BiasB) (p : Fin 512) (q : Fin 256) : EReal :=
  Ideal.logistic (preB X H Wox Woh bo p q) * Ideal.tanh (cellB X H C Wgx Wgh bg Wix Wih bi Wfx Wfh bf p q)

/-- A tile's pre-activation is the whole arrays' when the tile's rows are the arrays' rows `a` and `b` and its bias entry
    is the sum of the two biases at `b`. -/
theorem preB_eq {X H : ActB} {Wx Wh : WgtB} {bb : BiasB} {x h : Act} {wx wh : Wgt} {bx bh : Bias}
    {p : Fin 512} {q : Fin 256} {a : Fin 4096} {b : Fin 2048}
    (hX : ∀ k : Fin 2048, X (ix2 p k) = x (ix2 a k)) (hH : ∀ k : Fin 2048, H (ix2 p k) = h (ix2 a k))
    (hWx : ∀ k : Fin 2048, Wx (ix2 q k) = wx (ix2 b k)) (hWh : ∀ k : Fin 2048, Wh (ix2 q k) = wh (ix2 b k))
    (hb : bb (ix2 (0 : Fin 1) q) = bx (ix1 b) + bh (ix1 b)) :
    preB X H Wx Wh bb p q = pre x h wx wh bx bh a b := by
  unfold preB pre
  rw [hb, Finset.sum_congr rfl fun k _ => show X (ix2 p k) * Wx (ix2 q k) = x (ix2 a k) * wx (ix2 b k) by rw [hX k, hWx k],
    Finset.sum_congr rfl fun k _ => show H (ix2 p k) * Wh (ix2 q k) = h (ix2 a k) * wh (ix2 b k) by rw [hH k, hWh k]]

/-- The tile's cell state at `(p, q)` is the whole function's at `(a, b)`, when every tile entry it reads is the whole
    arrays' entry in row `a`, respectively row or column `b`. -/
theorem cellB_eq {X H : ActB} {C : OutB} {Wgx Wgh : WgtB} {bg : BiasB} {Wix Wih : WgtB} {bi : BiasB} {Wfx Wfh : WgtB} {bf : BiasB}
    {x h c : Act} {wgx : Wgt} {bgx : Bias} {wgh : Wgt} {bgh : Bias} {wix : Wgt} {bix : Bias} {wih : Wgt} {bih : Bias}
    {wfx : Wgt} {bfx : Bias} {wfh : Wgt} {bfh : Bias} {p : Fin 512} {q : Fin 256} {a : Fin 4096} {b : Fin 2048}
    (hX : ∀ k : Fin 2048, X (ix2 p k) = x (ix2 a k)) (hH : ∀ k : Fin 2048, H (ix2 p k) = h (ix2 a k))
    (hC : C (ix2 p q) = c (ix2 a b))
    (hWgx : ∀ k : Fin 2048, Wgx (ix2 q k) = wgx (ix2 b k)) (hWgh : ∀ k : Fin 2048, Wgh (ix2 q k) = wgh (ix2 b k))
    (hbg : bg (ix2 (0 : Fin 1) q) = bgx (ix1 b) + bgh (ix1 b))
    (hWix : ∀ k : Fin 2048, Wix (ix2 q k) = wix (ix2 b k)) (hWih : ∀ k : Fin 2048, Wih (ix2 q k) = wih (ix2 b k))
    (hbi : bi (ix2 (0 : Fin 1) q) = bix (ix1 b) + bih (ix1 b))
    (hWfx : ∀ k : Fin 2048, Wfx (ix2 q k) = wfx (ix2 b k)) (hWfh : ∀ k : Fin 2048, Wfh (ix2 q k) = wfh (ix2 b k))
    (hbf : bf (ix2 (0 : Fin 1) q) = bfx (ix1 b) + bfh (ix1 b)) :
    cellB X H C Wgx Wgh bg Wix Wih bi Wfx Wfh bf p q
      = cell x h c wgx bgx wgh bgh wix bix wih bih wfx bfx wfh bfh a b := by
  unfold cellB cell
  rw [preB_eq hX hH hWfx hWfh hbf, preB_eq hX hH hWix hWih hbi, preB_eq hX hH hWgx hWgh hbg, hC]

/-- The same for the hidden state, with the output gate's rows and biases as well. -/
theorem hiddenB_eq {X H : ActB} {C : OutB} {Wgx Wgh : WgtB} {bg : BiasB} {Wix Wih : WgtB} {bi : BiasB} {Wfx Wfh : WgtB} {bf : BiasB}
    {Wox Woh : WgtB} {bo : BiasB}
    {x h c : Act} {wgx : Wgt} {bgx : Bias} {wgh : Wgt} {bgh : Bias} {wix : Wgt} {bix : Bias} {wih : Wgt} {bih : Bias}
    {wfx : Wgt} {bfx : Bias} {wfh : Wgt} {bfh : Bias} {wox : Wgt} {box : Bias} {woh : Wgt} {boh : Bias}
    {p : Fin 512} {q : Fin 256} {a : Fin 4096} {b : Fin 2048}
    (hX : ∀ k : Fin 2048, X (ix2 p k) = x (ix2 a k)) (hH : ∀ k : Fin 2048, H (ix2 p k) = h (ix2 a k))
    (hC : C (ix2 p q) = c (ix2 a b))
    (hWgx : ∀ k : Fin 2048, Wgx (ix2 q k) = wgx (ix2 b k)) (hWgh : ∀ k : Fin 2048, Wgh (ix2 q k) = wgh (ix2 b k))
    (hbg : bg (ix2 (0 : Fin 1) q) = bgx (ix1 b) + bgh (ix1 b))
    (hWix : ∀ k : Fin 2048, Wix (ix2 q k) = wix (ix2 b k)) (hWih : ∀ k : Fin 2048, Wih (ix2 q k) = wih (ix2 b k))
    (hbi : bi (ix2 (0 : Fin 1) q) = bix (ix1 b) + bih (ix1 b))
    (hWfx : ∀ k : Fin 2048, Wfx (ix2 q k) = wfx (ix2 b k)) (hWfh : ∀ k : Fin 2048, Wfh (ix2 q k) = wfh (ix2 b k))
    (hbf : bf (ix2 (0 : Fin 1) q) = bfx (ix1 b) + bfh (ix1 b))
    (hWox : ∀ k : Fin 2048, Wox (ix2 q k) = wox (ix2 b k)) (hWoh : ∀ k : Fin 2048, Woh (ix2 q k) = woh (ix2 b k))
    (hbo : bo (ix2 (0 : Fin 1) q) = box (ix1 b) + boh (ix1 b)) :
    hiddenB X H C Wgx Wgh bg Wix Wih bi Wfx Wfh bf Wox Woh bo p q
      = hidden x h c wgx bgx wgh bgh wix bix wih bih wfx bfx wfh bfh wox box woh boh a b := by
  unfold hiddenB hidden
  rw [preB_eq hX hH hWox hWoh hbo, cellB_eq hX hH hC hWgx hWgh hbg hWix hWih hbi hWfx hWfh hbf]

end Cert.Lstm

end
-- ==== Proof.KernelTile.lean ====
/-
  What one grid point computes, read at an entry of its [512, 256] tile.

  At a grid point the body holds: 512 rows of the input and of the hidden state (each [512, 2048]), a [512, 256]
  tile of the cell state, and per gate 256 rows of the input weights and of the recurrent weights (each [256, 2048])
  and 256 entries of the gate's bias as one row [1, 256]. It multiplies a [512, 2048] block by a [256, 2048] block
  contracting the SECOND axis of both — entry `(p, q)` of the product is `Σₖ A[p,k]·W[q,k]` (`product_apply`: the sum
  over the one contracted axis, re-indexed by that axis' coordinate) — starting from a zero accumulator, adds the
  two products of a gate, and adds the bias row broadcast over the 512 rows (`biasRow_apply`). Entry `(p, q)` of a
  gate is therefore `Lstm.preB` (`gate_apply`), and the two stored tiles are `Lstm.cellB` and `Lstm.hiddenB`
  entry by entry (`cellTile_apply`, `hiddenTile_apply`): the logistic function, tanh, products and sums are
  taken entry by entry, and a shape cast to the same shape changes nothing.
-/
import proofs.«126220_j31129922961925_2_alg».proof.Proof.Gen.KernelIdeal.Frame
import proofs.«126220_j31129922961925_2_alg».proof.Proof.LstmSpec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx
open scoped BigOperators

namespace Cert.KernelIdeal.Tile

open Cert.KernelIdeal Cert.KernelIdeal.Gen Cert.Lstm

/-- The body's one contraction: [512, 2048] against [256, 2048], second axis against second axis. -/
abbrev D : DotDims S512x2048 S256x2048 S512x256 := dot_S512x2048_S256x2048_S512x256_1_1_0_0_n_n

/-- The left operand's row is the output's row. -/
theorem lhs_row (j : S512x256.Idx) (k : D.contr.Idx) : (D.lhsIdx j k 0).val = (j 0).val := by
  unfold DotDims.lhsIdx
  rw [dif_neg (show ¬(0 : Fin S512x2048.rank) ∈ D.lhsBatch by decide),
    dif_pos (show (0 : Fin S512x2048.rank) ∈ D.lhsNonContracting by decide)]
  rfl

/-- The right operand's row is the output's column. -/
theorem rhs_row (j : S512x256.Idx) (k : D.contr.Idx) : (D.rhsIdx j k 0).val = (j 1).val := by
  unfold DotDims.rhsIdx
  rw [dif_neg (show ¬(0 : Fin S256x2048.rank) ∈ D.rhsBatch by decide),
    dif_pos (show (0 : Fin S256x2048.rank) ∈ D.rhsNonContracting by decide)]
  rfl

/-- The product into a zero accumulator, at `(p, q)`: row `p` of the left block against row `q` of the right block. -/
theorem product_apply (A : FVec Ideal S512x2048 .bf16) (W : FVec Ideal S256x2048 .bf16) (p : Fin 512) (q : Fin 256) :
    matmul (F := Ideal) D none A W (constant S512x256 .f32 0x00000000#32) (ix2 p q)
      = ∑ k : Fin 2048, A (ix2 p k) * W (ix2 q k) := by
  simp only [matmul]
  rw [Ideal.matmul_constant_zero_apply, ← Equiv.sum_comp (contrEquiv1 D 2048 rfl rfl).symm]
  refine Finset.sum_congr rfl fun k _ => ?_
  have hk := contrEquiv1_symm_val D 2048 rfl rfl k
  have el : D.lhsIdx (ix2 p q) ((contrEquiv1 D 2048 rfl rfl).symm k) = ix2 p k := funext fun a => Fin.ext (by
    match a with
    | ⟨0, _⟩ => exact lhs_row _ _
    | ⟨1, _⟩ => exact (D.lhsIdx_val_of_single rfl _ _).trans hk)
  have er : D.rhsIdx (ix2 p q) ((contrEquiv1 D 2048 rfl rfl).symm k) = ix2 q k := funext fun a => Fin.ext (by
    match a with
    | ⟨0, _⟩ => exact rhs_row _ _
    | ⟨1, _⟩ => exact (D.rhsIdx_val_of_single rfl _ _).trans hk)
  rw [el, er]

/-- A block times the 256 loaded weight rows, from zero. -/
def product (A : FVec Ideal S512x2048 .bf16) (W : FVec Ideal S256x2048 .bf16) : FVec Ideal S512x256 .f32 :=
  matmul (F := Ideal) D none A (shapeCast S256x2048 W shapeCasts_S256x2048_S256x2048) (constant S512x256 .f32 0x00000000#32)

theorem product_tile_apply (A : FVec Ideal S512x2048 .bf16) (W : FVec Ideal S256x2048 .bf16) (p : Fin 512) (q : Fin 256) :
    product A W (ix2 p q) = ∑ k : Fin 2048, A (ix2 p k) * W (ix2 q k) := by
  unfold product
  rw [shapeCast_self]
  exact product_apply A W p q

/-- The loaded bias row over the tile's 512 rows. -/
def biasRow (bb : FVec Ideal S1x256 .f32) : FVec Ideal S512x256 .f32 :=
  broadcastTo S512x256 (shapeCast S1x256 bb shapeCasts_S1x256_S1x256) broadcasts_S1x256_S512x256

theorem biasRow_apply (bb : FVec Ideal S1x256 .f32) (p : Fin 512) (q : Fin 256) :
    biasRow bb (ix2 p q) = bb (ix2 (0 : Fin 1) q) := by
  unfold biasRow
  rw [shapeCast_self]
  exact broadcastTo_1b_ab_apply bb broadcasts_S1x256_S512x256 p q

/-- A gate on the tile: the two products added, then the bias row. -/
def gate (X H : FVec Ideal S512x2048 .bf16) (Wx Wh : FVec Ideal S256x2048 .bf16) (bb : FVec Ideal S1x256 .f32) :
    FVec Ideal S512x256 .f32 :=
  addf (addf (product (shapeCast S512x2048 X shapeCasts_S512x2048_S512x2048) Wx)
    (product (shapeCast S512x2048 H shapeCasts_S512x2048_S512x2048) Wh)) (biasRow bb)

theorem gate_apply (X H : FVec Ideal S512x2048 .bf16) (Wx Wh : FVec Ideal S256x2048 .bf16) (bb : FVec Ideal S1x256 .f32)
    (p : Fin 512) (q : Fin 256) : gate X H Wx Wh bb (ix2 p q) = preB X H Wx Wh bb p q := by
  unfold gate
  rw [shapeCast_self, shapeCast_self]
  show (product X Wx (ix2 p q) + product H Wh (ix2 p q)) + biasRow bb (ix2 p q) = _
  rw [product_tile_apply, product_tile_apply, biasRow_apply]
  rfl

/-- The candidate and input gates' payloads are gates. -/
theorem pay5_eq (v0 v2 : FVec Ideal S512x2048 .bf16) (v5 v8 : FVec Ideal S256x2048 .bf16) (v12 : FVec Ideal S1x256 .f32) :
    k0_pay5 (F := Ideal) v0 v2 v5 v8 v12 = gate v0 v2 v5 v8 v12 := rfl

theorem pay6_eq (v0 v2 : FVec Ideal S512x2048 .bf16) (v16 v19 : FVec Ideal S256x2048 .bf16) (v23 : FVec Ideal S1x256 .f32) :
    k0_pay6 (F := Ideal) v0 v2 v16 v19 v23 = gate v0 v2 v16 v19 v23 := rfl

/-- The cell-state tile the body stores: the forget gate assembled from its first product, its second product and
    its bias row; the logistic function and tanh entry by entry. -/
def cellTile (x0 x1 : FVec Ideal S512x2048 .bf16) (x2 : FVec Ideal S512x256 .f32) (x3 x4 : FVec Ideal S256x2048 .bf16)
    (x5 : FVec Ideal S1x256 .f32) (x6 x7 : FVec Ideal S256x2048 .bf16) (x8 : FVec Ideal S1x256 .f32)
    (x9 x10 : FVec Ideal S256x2048 .bf16) (x11 : FVec Ideal S1x256 .f32) : FVec Ideal S512x256 .f32 :=
  k0_pay1 (F := Ideal) (k0_pay4 x1) x2 (k0_pay5 x0 x1 x3 x4 x5) (k0_pay6 x0 x1 x6 x7 x8) (k0_pay7 x0 x9) x10 x11

theorem cellTile_apply (x0 x1 : FVec Ideal S512x2048 .bf16) (x2 : FVec Ideal S512x256 .f32) (x3 x4 : FVec Ideal S256x2048 .bf16)
    (x5 : FVec Ideal S1x256 .f32) (x6 x7 : FVec Ideal S256x2048 .bf16) (x8 : FVec Ideal S1x256 .f32)
    (x9 x10 : FVec Ideal S256x2048 .bf16) (x11 : FVec Ideal S1x256 .f32) (p : Fin 512) (q : Fin 256) :
    cellTile x0 x1 x2 x3 x4 x5 x6 x7 x8 x9 x10 x11 (ix2 p q) = cellB x0 x1 x2 x3 x4 x5 x6 x7 x8 x9 x10 x11 p q := by
  show Ideal.logistic ((product (shapeCast S512x2048 x0 shapeCasts_S512x2048_S512x2048) x9 (ix2 p q)
        + product (shapeCast S512x2048 x1 shapeCasts_S512x2048_S512x2048) x10 (ix2 p q)) + biasRow x11 (ix2 p q)) * x2 (ix2 p q)
      + Ideal.logistic (gate x0 x1 x6 x7 x8 (ix2 p q)) * Ideal.tanh (gate x0 x1 x3 x4 x5 (ix2 p q)) = _
  rw [shapeCast_self, shapeCast_self, product_tile_apply, product_tile_apply, biasRow_apply, gate_apply, gate_apply]
  rfl

/-- The hidden-state tile the body stores: the output gate times tanh of the cell-state tile. -/
def hiddenTile (x0 x1 : FVec Ideal S512x2048 .bf16) (x2 : FVec Ideal S512x256 .f32) (x3 x4 : FVec Ideal S256x2048 .bf16)
    (x5 : FVec Ideal S1x256 .f32) (x6 x7 : FVec Ideal S256x2048 .bf16) (x8 : FVec Ideal S1x256 .f32)
    (x9 x10 : FVec Ideal S256x2048 .bf16) (x11 : FVec Ideal S1x256 .f32) (x12 x13 : FVec Ideal S256x2048 .bf16)
    (x14 : FVec Ideal S1x256 .f32) : FVec Ideal S512x256 .f32 :=
  k0_pay2 (F := Ideal) (k0_pay3 x0) (k0_pay4 x1) x2 (k0_pay5 x0 x1 x3 x4 x5) (k0_pay6 x0 x1 x6 x7 x8) (k0_pay7 x0 x9) x10 x11 x12 x13 x14

theorem hiddenTile_apply (x0 x1 : FVec Ideal S512x2048 .bf16) (x2 : FVec Ideal S512x256 .f32) (x3 x4 : FVec Ideal S256x2048 .bf16)
    (x5 : FVec Ideal S1x256 .f32) (x6 x7 : FVec Ideal S256x2048 .bf16) (x8 : FVec Ideal S1x256 .f32)
    (x9 x10 : FVec Ideal S256x2048 .bf16) (x11 : FVec Ideal S1x256 .f32) (x12 x13 : FVec Ideal S256x2048 .bf16)
    (x14 : FVec Ideal S1x256 .f32) (p : Fin 512) (q : Fin 256) :
    hiddenTile x0 x1 x2 x3 x4 x5 x6 x7 x8 x9 x10 x11 x12 x13 x14 (ix2 p q)
      = hiddenB x0 x1 x2 x3 x4 x5 x6 x7 x8 x9 x10 x11 x12 x13 x14 p q := by
  show Ideal.logistic (gate x0 x1 x12 x13 x14 (ix2 p q))
      * Ideal.tanh (cellTile x0 x1 x2 x3 x4 x5 x6 x7 x8 x9 x10 x11 (ix2 p q)) = _
  rw [gate_apply, cellTile_apply]
  rfl

theorem hz : (![0, 0] : Fin 2 → Nat) = fun _ => 0 := funext fun a => by fin_cases a <;> rfl

/-- The cell-state output's buffer after the body is `cellTile` of the loaded blocks: one store of the whole tile,
    every load the whole block. -/
theorem out16_eq (x0 x1 : FVec Ideal S512x2048 .bf16) (x2 : FVec Ideal S512x256 .f32) (x3 x4 : FVec Ideal S256x2048 .bf16)
    (x5 : FVec Ideal S1x256 .f32) (x6 x7 : FVec Ideal S256x2048 .bf16) (x8 : FVec Ideal S1x256 .f32)
    (x9 x10 : FVec Ideal S256x2048 .bf16) (x11 : FVec Ideal S1x256 .f32) (x12 x13 : FVec Ideal S256x2048 .bf16)
    (x14 : FVec Ideal S1x256 .f32) :
    out0_16 (F := Ideal) x0 x1 x2 x3 x4 x5 x6 x7 x8 x9 x10 x11 x12 x13 x14 = cellTile x0 x1 x2 x3 x4 x5 x6 x7 x8 x9 x10 x11 := by
  unfold out0_16
  rw [View.canon_unit_zero hz]
  simp only [View.ld_unit_zero (S := S512x2048) hz, View.ld_unit_zero (S := S512x256) hz,
    View.ld_unit_zero (S := S256x2048) hz, View.ld_unit_zero (S := S1x256) hz]
  rfl

/-- The hidden-state output's buffer after the body is `hiddenTile` of the loaded blocks. -/
theorem out15_eq (x0 x1 : FVec Ideal S512x2048 .bf16) (x2 : FVec Ideal S512x256 .f32) (x3 x4 : FVec Ideal S256x2048 .bf16)
    (x5 : FVec Ideal S1x256 .f32) (x6 x7 : FVec Ideal S256x2048 .bf16) (x8 : FVec Ideal S1x256 .f32)
    (x9 x10 : FVec Ideal S256x2048 .bf16) (x11 : FVec Ideal S1x256 .f32) (x12 x13 : FVec Ideal S256x2048 .bf16)
    (x14 : FVec Ideal S1x256 .f32) :
    out0_15 (F := Ideal) x0 x1 x2 x3 x4 x5 x6 x7 x8 x9 x10 x11 x12 x13 x14
      = hiddenTile x0 x1 x2 x3 x4 x5 x6 x7 x8 x9 x10 x11 x12 x13 x14 := by
  unfold out0_15
  rw [View.canon_unit_zero hz]
  simp only [View.ld_unit_zero (S := S512x2048) hz, View.ld_unit_zero (S := S512x256) hz,
    View.ld_unit_zero (S := S256x2048) hz, View.ld_unit_zero (S := S1x256) hz]
  rfl

end Cert.KernelIdeal.Tile

end
-- ==== Proof.KernelBlocks.lean ====
/-
  The blocks a grid point loads, as entries of the argument arrays.

  Before the grid runs, the program narrows the input, the hidden state and the eight weight matrices to a shorter
  float format — the identity on extended reals — and adds each gate's two biases into one [1, 2048] row. So the array
  a window is cut from is an argument itself (`staged_*`), or, for a bias window, the entrywise sum of two arguments
  laid out as one row (`staged_bias_*`).

  The grid is 8 × 8; point (i, j) computes the tile of batch rows 512·i … 512·i + 511 and hidden columns
  256·j … 256·j + 255. A block's element sits in its array at block index × block size + its own coordinate on each
  axis, and the index maps, decided once over the 64 points (`index_facts`), say: the input and hidden-state windows
  follow the tile's row index and take all 2048 columns; the cell-state window is the tile itself; every weight window
  takes the 256 rows at the tile's COLUMN index, whole; every bias window the 256 entries at the tile's column index.
  Hence the block reads `rows_*`, `tile_c`, `wrows_*`, `brow_*`: each loaded entry is the argument's entry at the
  matching row or column.
-/
import proofs.«126220_j31129922961925_2_alg».proof.Proof.Gen.KernelIdeal.Frame
import proofs.«126220_j31129922961925_2_alg».proof.Proof.LstmSpec
import Idealize.ShloMosaic.Lib.Pipeline.Value
import Idealize.ShloMosaic.Lib.StableHlo.Run
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.Lstm

variable (m : (ℓ : Loc nD τ sig) → Buf (Elt Ideal) ℓ)

/-! ## The nineteen arguments, as launched -/

/-- The input. -/
def xIn (c : Dev nD) : Act := m ((c : Thread nD τ).loc main_arg0)
/-- The previous hidden state. -/
def hIn (c : Dev nD) : Act := m ((c : Thread nD τ).loc main_arg1)
/-- The previous cell state. -/
def cIn (c : Dev nD) : Act := m ((c : Thread nD τ).loc main_arg2)
/-- The candidate gate's input weights. -/
def wgx (c : Dev nD) : Wgt := m ((c : Thread nD τ).loc main_arg3)
/-- The candidate gate's input bias. -/
def bgx (c : Dev nD) : Bias := m ((c : Thread nD τ).loc main_arg4)
/-- The candidate gate's recurrent weights. -/
def wgh (c : Dev nD) : Wgt := m ((c : Thread nD τ).loc main_arg5)
/-- The candidate gate's recurrent bias. -/
def bgh (c : Dev nD) : Bias := m ((c : Thread nD τ).loc main_arg6)
/-- The input gate's input weights. -/
def wix (c : Dev nD) : Wgt := m ((c : Thread nD τ).loc main_arg7)
/-- The input gate's input bias. -/
def bix (c : Dev nD) : Bias := m ((c : Thread nD τ).loc main_arg8)
/-- The input gate's recurrent weights. -/
def wih (c : Dev nD) : Wgt := m ((c : Thread nD τ).loc main_arg9)
/-- The input gate's recurrent bias. -/
def bih (c : Dev nD) : Bias := m ((c : Thread nD τ).loc main_arg10)
/-- The forget gate's input weights. -/
def wfx (c : Dev nD) : Wgt := m ((c : Thread nD τ).loc main_arg11)
/-- The forget gate's input bias. -/
def bfx (c : Dev nD) : Bias := m ((c : Thread nD τ).loc main_arg12)
/-- The forget gate's recurrent weights. -/
def wfh (c : Dev nD) : Wgt := m ((c : Thread nD τ).loc main_arg13)
/-- The forget gate's recurrent bias. -/
def bfh (c : Dev nD) : Bias := m ((c : Thread nD τ).loc main_arg14)
/-- The output gate's input weights. -/
def wox (c : Dev nD) : Wgt := m ((c : Thread nD τ).loc main_arg15)
/-- The output gate's input bias. -/
def box (c : Dev nD) : Bias := m ((c : Thread nD τ).loc main_arg16)
/-- The output gate's recurrent weights. -/
def woh (c : Dev nD) : Wgt := m ((c : Thread nD τ).loc main_arg17)
/-- The output gate's recurrent bias. -/
def boh (c : Dev nD) : Bias := m ((c : Thread nD τ).loc main_arg18)

/-! ## What the windows' arrays hold when the grid starts -/

/-- The narrowed copy window 0 is cut from holds the argument's extended reals. -/
theorem staged_xIn (c : Dev nD) : (V m c main_v0 : S4096x2048.Idx → EReal) = xIn m c := by
  dsimp only [Gen.V, Gen.hostOps0]
  after_results
  rfl

/-- The narrowed copy window 1 is cut from holds the argument's extended reals. -/
theorem staged_hIn (c : Dev nD) : (V m c main_v1 : S4096x2048.Idx → EReal) = hIn m c := by
  dsimp only [Gen.V, Gen.hostOps0]
  after_results
  rfl

/-- The narrowed copy window 3 is cut from holds the argument's extended reals. -/
theorem staged_wgx (c : Dev nD) : (V m c main_v2 : S2048x2048.Idx → EReal) = wgx m c := by
  dsimp only [Gen.V, Gen.hostOps0]
  after_results
  rfl

/-- The narrowed copy window 4 is cut from holds the argument's extended reals. -/
theorem staged_wgh (c : Dev nD) : (V m c main_v3 : S2048x2048.Idx → EReal) = wgh m c := by
  dsimp only [Gen.V, Gen.hostOps0]
  after_results
  rfl

/-- The narrowed copy window 6 is cut from holds the argument's extended reals. -/
theorem staged_wix (c : Dev nD) : (V m c main_v4 : S2048x2048.Idx → EReal) = wix m c := by
  dsimp only [Gen.V, Gen.hostOps0]
  after_results
  rfl

/-- The narrowed copy window 7 is cut from holds the argument's extended reals. -/
theorem staged_wih (c : Dev nD) : (V m c main_v5 : S2048x2048.Idx → EReal) = wih m c := by
  dsimp only [Gen.V, Gen.hostOps0]
  after_results
  rfl

/-- The narrowed copy window 9 is cut from holds the argument's extended reals. -/
theorem staged_wfx (c : Dev nD) : (V m c main_v6 : S2048x2048.Idx → EReal) = wfx m c := by
  dsimp only [Gen.V, Gen.hostOps0]
  after_results
  rfl

/-- The narrowed copy window 10 is cut from holds the argument's extended reals. -/
theorem staged_wfh (c : Dev nD) : (V m c main_v7 : S2048x2048.Idx → EReal) = wfh m c := by
  dsimp only [Gen.V, Gen.hostOps0]
  after_results
  rfl

/-- The narrowed copy window 12 is cut from holds the argument's extended reals. -/
theorem staged_wox (c : Dev nD) : (V m c main_v8 : S2048x2048.Idx → EReal) = wox m c := by
  dsimp only [Gen.V, Gen.hostOps0]
  after_results
  rfl

/-- The narrowed copy window 13 is cut from holds the argument's extended reals. -/
theorem staged_woh (c : Dev nD) : (V m c main_v9 : S2048x2048.Idx → EReal) = woh m c := by
  dsimp only [Gen.V, Gen.hostOps0]
  after_results
  rfl

/-- The cell state is passed to its window as it is. -/
theorem staged_cIn (c : Dev nD) : (V m c main_arg2 : S4096x2048.Idx → EReal) = cIn m c :=
  V_main_arg2 m c

/-- Window 5's one-row array holds, at column `j`, the sum of the gate's two biases at `j`. -/
theorem staged_bias_bgx_bgh (c : Dev nD) (j : Fin 2048) :
    (V m c main_v11 : S1x2048.Idx → EReal) (ix2 (0 : Fin 1) j) = bgx m c (ix1 j) + bgh m c (ix1 j) := by
  dsimp only [Gen.V, Gen.hostOps0]
  after_results
  show shapeCast S1x2048 (addf (F := Ideal) (bgx m c) (bgh m c)) shapeCasts_S2048_S1x2048 (ix2 (0 : Fin 1) j) = _
  rw [shapeCast_a_1a_apply]
  rfl

/-- Window 8's one-row array holds, at column `j`, the sum of the gate's two biases at `j`. -/
theorem staged_bias_bix_bih (c : Dev nD) (j : Fin 2048) :
    (V m c main_v13 : S1x2048.Idx → EReal) (ix2 (0 : Fin 1) j) = bix m c (ix1 j) + bih m c (ix1 j) := by
  dsimp only [Gen.V, Gen.hostOps0]
  after_results
  show shapeCast S1x2048 (addf (F := Ideal) (bix m c) (bih m c)) shapeCasts_S2048_S1x2048 (ix2 (0 : Fin 1) j) = _
  rw [shapeCast_a_1a_apply]
  rfl

/-- Window 11's one-row array holds, at column `j`, the sum of the gate's two biases at `j`. -/
theorem staged_bias_bfx_bfh (c : Dev nD) (j : Fin 2048) :
    (V m c main_v15 : S1x2048.Idx → EReal) (ix2 (0 : Fin 1) j) = bfx m c (ix1 j) + bfh m c (ix1 j) := by
  dsimp only [Gen.V, Gen.hostOps0]
  after_results
  show shapeCast S1x2048 (addf (F := Ideal) (bfx m c) (bfh m c)) shapeCasts_S2048_S1x2048 (ix2 (0 : Fin 1) j) = _
  rw [shapeCast_a_1a_apply]
  rfl

/-- Window 14's one-row array holds, at column `j`, the sum of the gate's two biases at `j`. -/
theorem staged_bias_box_boh (c : Dev nD) (j : Fin 2048) :
    (V m c main_v17 : S1x2048.Idx → EReal) (ix2 (0 : Fin 1) j) = box m c (ix1 j) + boh m c (ix1 j) := by
  dsimp only [Gen.V, Gen.hostOps0]
  after_results
  show shapeCast S1x2048 (addf (F := Ideal) (box m c) (boh m c)) shapeCasts_S2048_S1x2048 (ix2 (0 : Fin 1) j) = _
  rw [shapeCast_a_1a_apply]
  rfl

/-! ## The index maps over the grid -/

/-- Every window's block index at a grid point, against the hidden-state result's: decided over the 64 points. -/
theorem index_facts : ∀ t : Fin cfg0.N,
    win0_15.index t (0 : Fin 2) ≤ 7 ∧ win0_15.index t (1 : Fin 2) ≤ 7
    ∧ win0_16.index t (0 : Fin 2) = win0_15.index t (0 : Fin 2) ∧ win0_16.index t (1 : Fin 2) = win0_15.index t (1 : Fin 2)
    ∧ win0_0.index t (0 : Fin 2) = win0_15.index t (0 : Fin 2) ∧ win0_0.index t (1 : Fin 2) = 0
    ∧ win0_1.index t (0 : Fin 2) = win0_15.index t (0 : Fin 2) ∧ win0_1.index t (1 : Fin 2) = 0
    ∧ win0_2.index t (0 : Fin 2) = win0_15.index t (0 : Fin 2) ∧ win0_2.index t (1 : Fin 2) = win0_15.index t (1 : Fin 2) :=
  (by decide +kernel : ∀ t : Fin grid0.N, _)

/-- The weight windows take the rows at the tile's column index, whole. -/
theorem index_facts_weights : ∀ t : Fin cfg0.N,
    win0_3.index t (0 : Fin 2) = win0_15.index t (1 : Fin 2) ∧ win0_3.index t (1 : Fin 2) = 0
    ∧ win0_4.index t (0 : Fin 2) = win0_15.index t (1 : Fin 2) ∧ win0_4.index t (1 : Fin 2) = 0
    ∧ win0_6.index t (0 : Fin 2) = win0_15.index t (1 : Fin 2) ∧ win0_6.index t (1 : Fin 2) = 0
    ∧ win0_7.index t (0 : Fin 2) = win0_15.index t (1 : Fin 2) ∧ win0_7.index t (1 : Fin 2) = 0
    ∧ win0_9.index t (0 : Fin 2) = win0_15.index t (1 : Fin 2) ∧ win0_9.index t (1 : Fin 2) = 0
    ∧ win0_10.index t (0 : Fin 2) = win0_15.index t (1 : Fin 2) ∧ win0_10.index t (1 : Fin 2) = 0
    ∧ win0_12.index t (0 : Fin 2) = win0_15.index t (1 : Fin 2) ∧ win0_12.index t (1 : Fin 2) = 0
    ∧ win0_13.index t (0 : Fin 2) = win0_15.index t (1 : Fin 2) ∧ win0_13.index t (1 : Fin 2) = 0 :=
  (by decide +kernel : ∀ t : Fin grid0.N, _)

/-- The bias windows take the one row, at the tile's column index. -/
theorem index_facts_biases : ∀ t : Fin cfg0.N,
    win0_5.index t (0 : Fin 2) = 0 ∧ win0_5.index t (1 : Fin 2) = win0_15.index t (1 : Fin 2)
    ∧ win0_8.index t (0 : Fin 2) = 0 ∧ win0_8.index t (1 : Fin 2) = win0_15.index t (1 : Fin 2)
    ∧ win0_11.index t (0 : Fin 2) = 0 ∧ win0_11.index t (1 : Fin 2) = win0_15.index t (1 : Fin 2)
    ∧ win0_14.index t (0 : Fin 2) = 0 ∧ win0_14.index t (1 : Fin 2) = win0_15.index t (1 : Fin 2) :=
  (by decide +kernel : ∀ t : Fin grid0.N, _)

/-- Every tile of the 8 × 8 tiling is some point's. -/
theorem index_onto : ∀ (i j : Fin 8), ∃ t : Fin cfg0.N, win0_15.index t = ![i.val, j.val] :=
  (by decide +kernel : ∀ (i j : Fin 8), ∃ t : Fin grid0.N, win0_15.index t = ![i.val, j.val])

/-- A row inside one of eight 512-row tiles is a row of the array. -/
theorem row_lt (I p : Nat) (hI : I ≤ 7) (hp : p < 512) : I * 512 + p < 4096 := by omega

/-- A column inside one of eight 256-column tiles is a column of the array. -/
theorem col_lt (J q : Nat) (hJ : J ≤ 7) (hq : q < 256) : J * 256 + q < 2048 := by omega

/-! ## The loaded blocks, entry by entry -/

/-- Row `p` of window 0's block is row `a` of the argument, all 2048 columns. -/
theorem rows_xIn (c : Dev nD) (t : Fin cfg0.N) (p : Fin 512) (k : Fin 2048) (a : Fin 4096) (I : Nat)
    (h0 : win0_0.index t (0 : Fin 2) = I) (h1 : win0_0.index t (1 : Fin 2) = 0) (ha : a.val = I * 512 + p.val) :
    (iblk m c 0 t : FVec Ideal S512x2048 .bf16) (ix2 p k) = xIn m c (ix2 a k) := by
  unfold iblk
  rw [View.read_apply]
  show (V m c main_v0 : S4096x2048.Idx → EReal) _ = _
  rw [staged_xIn]
  refine congrArg (xIn m c) (funext fun ax => Fin.ext ?_)
  match ax with
  | ⟨0, _⟩ => show win0_0.index t (0 : Fin 2) * 512 + 1 * p.val = a.val; rw [h0, ha, Nat.one_mul]
  | ⟨1, _⟩ => show win0_0.index t (1 : Fin 2) * 2048 + 1 * k.val = k.val; rw [h1, Nat.zero_mul, Nat.zero_add, Nat.one_mul]

/-- Row `p` of window 1's block is row `a` of the argument, all 2048 columns. -/
theorem rows_hIn (c : Dev nD) (t : Fin cfg0.N) (p : Fin 512) (k : Fin 2048) (a : Fin 4096) (I : Nat)
    (h0 : win0_1.index t (0 : Fin 2) = I) (h1 : win0_1.index t (1 : Fin 2) = 0) (ha : a.val = I * 512 + p.val) :
    (iblk m c 1 t : FVec Ideal S512x2048 .bf16) (ix2 p k) = hIn m c (ix2 a k) := by
  unfold iblk
  rw [View.read_apply]
  show (V m c main_v1 : S4096x2048.Idx → EReal) _ = _
  rw [staged_hIn]
  refine congrArg (hIn m c) (funext fun ax => Fin.ext ?_)
  match ax with
  | ⟨0, _⟩ => show win0_1.index t (0 : Fin 2) * 512 + 1 * p.val = a.val; rw [h0, ha, Nat.one_mul]
  | ⟨1, _⟩ => show win0_1.index t (1 : Fin 2) * 2048 + 1 * k.val = k.val; rw [h1, Nat.zero_mul, Nat.zero_add, Nat.one_mul]

/-- Entry `(p, q)` of the cell-state window's block is entry `(a, b)` of the cell state. -/
theorem tile_c (c : Dev nD) (t : Fin cfg0.N) (p : Fin 512) (q : Fin 256) (a : Fin 4096) (b : Fin 2048) (I J : Nat)
    (h0 : win0_2.index t (0 : Fin 2) = I) (h1 : win0_2.index t (1 : Fin 2) = J)
    (ha : a.val = I * 512 + p.val) (hb : b.val = J * 256 + q.val) :
    (iblk m c 2 t : FVec Ideal S512x256 .f32) (ix2 p q) = cIn m c (ix2 a b) := by
  unfold iblk
  rw [View.read_apply]
  show (V m c main_arg2 : S4096x2048.Idx → EReal) _ = _
  rw [staged_cIn]
  refine congrArg (cIn m c) (funext fun ax => Fin.ext ?_)
  match ax with
  | ⟨0, _⟩ => show win0_2.index t (0 : Fin 2) * 512 + 1 * p.val = a.val; rw [h0, ha, Nat.one_mul]
  | ⟨1, _⟩ => show win0_2.index t (1 : Fin 2) * 256 + 1 * q.val = b.val; rw [h1, hb, Nat.one_mul]

/-- Row `q` of window 3's block is row `b` of the weight matrix, all 2048 columns. -/
theorem wrows_wgx (c : Dev nD) (t : Fin cfg0.N) (q : Fin 256) (k : Fin 2048) (b : Fin 2048) (J : Nat)
    (h0 : win0_3.index t (0 : Fin 2) = J) (h1 : win0_3.index t (1 : Fin 2) = 0) (hb : b.val = J * 256 + q.val) :
    (iblk m c 3 t : FVec Ideal S256x2048 .bf16) (ix2 q k) = wgx m c (ix2 b k) := by
  unfold iblk
  rw [View.read_apply]
  show (V m c main_v2 : S2048x2048.Idx → EReal) _ = _
  rw [staged_wgx]
  refine congrArg (wgx m c) (funext fun ax => Fin.ext ?_)
  match ax with
  | ⟨0, _⟩ => show win0_3.index t (0 : Fin 2) * 256 + 1 * q.val = b.val; rw [h0, hb, Nat.one_mul]
  | ⟨1, _⟩ => show win0_3.index t (1 : Fin 2) * 2048 + 1 * k.val = k.val; rw [h1, Nat.zero_mul, Nat.zero_add, Nat.one_mul]

/-- Row `q` of window 4's block is row `b` of the weight matrix, all 2048 columns. -/
theorem wrows_wgh (c : Dev nD) (t : Fin cfg0.N) (q : Fin 256) (k : Fin 2048) (b : Fin 2048) (J : Nat)
    (h0 : win0_4.index t (0 : Fin 2) = J) (h1 : win0_4.index t (1 : Fin 2) = 0) (hb : b.val = J * 256 + q.val) :
    (iblk m c 4 t : FVec Ideal S256x2048 .bf16) (ix2 q k) = wgh m c (ix2 b k) := by
  unfold iblk
  rw [View.read_apply]
  show (V m c main_v3 : S2048x2048.Idx → EReal) _ = _
  rw [staged_wgh]
  refine congrArg (wgh m c) (funext fun ax => Fin.ext ?_)
  match ax with
  | ⟨0, _⟩ => show win0_4.index t (0 : Fin 2) * 256 + 1 * q.val = b.val; rw [h0, hb, Nat.one_mul]
  | ⟨1, _⟩ => show win0_4.index t (1 : Fin 2) * 2048 + 1 * k.val = k.val; rw [h1, Nat.zero_mul, Nat.zero_add, Nat.one_mul]

/-- Row `q` of window 6's block is row `b` of the weight matrix, all 2048 columns. -/
theorem wrows_wix (c : Dev nD) (t : Fin cfg0.N) (q : Fin 256) (k : Fin 2048) (b : Fin 2048) (J : Nat)
    (h0 : win0_6.index t (0 : Fin 2) = J) (h1 : win0_6.index t (1 : Fin 2) = 0) (hb : b.val = J * 256 + q.val) :
    (iblk m c 6 t : FVec Ideal S256x2048 .bf16) (ix2 q k) = wix m c (ix2 b k) := by
  unfold iblk
  rw [View.read_apply]
  show (V m c main_v4 : S2048x2048.Idx → EReal) _ = _
  rw [staged_wix]
  refine congrArg (wix m c) (funext fun ax => Fin.ext ?_)
  match ax with
  | ⟨0, _⟩ => show win0_6.index t (0 : Fin 2) * 256 + 1 * q.val = b.val; rw [h0, hb, Nat.one_mul]
  | ⟨1, _⟩ => show win0_6.index t (1 : Fin 2) * 2048 + 1 * k.val = k.val; rw [h1, Nat.zero_mul, Nat.zero_add, Nat.one_mul]

/-- Row `q` of window 7's block is row `b` of the weight matrix, all 2048 columns. -/
theorem wrows_wih (c : Dev nD) (t : Fin cfg0.N) (q : Fin 256) (k : Fin 2048) (b : Fin 2048) (J : Nat)
    (h0 : win0_7.index t (0 : Fin 2) = J) (h1 : win0_7.index t (1 : Fin 2) = 0) (hb : b.val = J * 256 + q.val) :
    (iblk m c 7 t : FVec Ideal S256x2048 .bf16) (ix2 q k) = wih m c (ix2 b k) := by
  unfold iblk
  rw [View.read_apply]
  show (V m c main_v5 : S2048x2048.Idx → EReal) _ = _
  rw [staged_wih]
  refine congrArg (wih m c) (funext fun ax => Fin.ext ?_)
  match ax with
  | ⟨0, _⟩ => show win0_7.index t (0 : Fin 2) * 256 + 1 * q.val = b.val; rw [h0, hb, Nat.one_mul]
  | ⟨1, _⟩ => show win0_7.index t (1 : Fin 2) * 2048 + 1 * k.val = k.val; rw [h1, Nat.zero_mul, Nat.zero_add, Nat.one_mul]

/-- Row `q` of window 9's block is row `b` of the weight matrix, all 2048 columns. -/
theorem wrows_wfx (c : Dev nD) (t : Fin cfg0.N) (q : Fin 256) (k : Fin 2048) (b : Fin 2048) (J : Nat)
    (h0 : win0_9.index t (0 : Fin 2) = J) (h1 : win0_9.index t (1 : Fin 2) = 0) (hb : b.val = J * 256 + q.val) :
    (iblk m c 9 t : FVec Ideal S256x2048 .bf16) (ix2 q k) = wfx m c (ix2 b k) := by
  unfold iblk
  rw [View.read_apply]
  show (V m c main_v6 : S2048x2048.Idx → EReal) _ = _
  rw [staged_wfx]
  refine congrArg (wfx m c) (funext fun ax => Fin.ext ?_)
  match ax with
  | ⟨0, _⟩ => show win0_9.index t (0 : Fin 2) * 256 + 1 * q.val = b.val; rw [h0, hb, Nat.one_mul]
  | ⟨1, _⟩ => show win0_9.index t (1 : Fin 2) * 2048 + 1 * k.val = k.val; rw [h1, Nat.zero_mul, Nat.zero_add, Nat.one_mul]

/-- Row `q` of window 10's block is row `b` of the weight matrix, all 2048 columns. -/
theorem wrows_wfh (c : Dev nD) (t : Fin cfg0.N) (q : Fin 256) (k : Fin 2048) (b : Fin 2048) (J : Nat)
    (h0 : win0_10.index t (0 : Fin 2) = J) (h1 : win0_10.index t (1 : Fin 2) = 0) (hb : b.val = J * 256 + q.val) :
    (iblk m c 10 t : FVec Ideal S256x2048 .bf16) (ix2 q k) = wfh m c (ix2 b k) := by
  unfold iblk
  rw [View.read_apply]
  show (V m c main_v7 : S2048x2048.Idx → EReal) _ = _
  rw [staged_wfh]
  refine congrArg (wfh m c) (funext fun ax => Fin.ext ?_)
  match ax with
  | ⟨0, _⟩ => show win0_10.index t (0 : Fin 2) * 256 + 1 * q.val = b.val; rw [h0, hb, Nat.one_mul]
  | ⟨1, _⟩ => show win0_10.index t (1 : Fin 2) * 2048 + 1 * k.val = k.val; rw [h1, Nat.zero_mul, Nat.zero_add, Nat.one_mul]

/-- Row `q` of window 12's block is row `b` of the weight matrix, all 2048 columns. -/
theorem wrows_wox (c : Dev nD) (t : Fin cfg0.N) (q : Fin 256) (k : Fin 2048) (b : Fin 2048) (J : Nat)
    (h0 : win0_12.index t (0 : Fin 2) = J) (h1 : win0_12.index t (1 : Fin 2) = 0) (hb : b.val = J * 256 + q.val) :
    (iblk m c 12 t : FVec Ideal S256x2048 .bf16) (ix2 q k) = wox m c (ix2 b k) := by
  unfold iblk
  rw [View.read_apply]
  show (V m c main_v8 : S2048x2048.Idx → EReal) _ = _
  rw [staged_wox]
  refine congrArg (wox m c) (funext fun ax => Fin.ext ?_)
  match ax with
  | ⟨0, _⟩ => show win0_12.index t (0 : Fin 2) * 256 + 1 * q.val = b.val; rw [h0, hb, Nat.one_mul]
  | ⟨1, _⟩ => show win0_12.index t (1 : Fin 2) * 2048 + 1 * k.val = k.val; rw [h1, Nat.zero_mul, Nat.zero_add, Nat.one_mul]

/-- Row `q` of window 13's block is row `b` of the weight matrix, all 2048 columns. -/
theorem wrows_woh (c : Dev nD) (t : Fin cfg0.N) (q : Fin 256) (k : Fin 2048) (b : Fin 2048) (J : Nat)
    (h0 : win0_13.index t (0 : Fin 2) = J) (h1 : win0_13.index t (1 : Fin 2) = 0) (hb : b.val = J * 256 + q.val) :
    (iblk m c 13 t : FVec Ideal S256x2048 .bf16) (ix2 q k) = woh m c (ix2 b k) := by
  unfold iblk
  rw [View.read_apply]
  show (V m c main_v9 : S2048x2048.Idx → EReal) _ = _
  rw [staged_woh]
  refine congrArg (woh m c) (funext fun ax => Fin.ext ?_)
  match ax with
  | ⟨0, _⟩ => show win0_13.index t (0 : Fin 2) * 256 + 1 * q.val = b.val; rw [h0, hb, Nat.one_mul]
  | ⟨1, _⟩ => show win0_13.index t (1 : Fin 2) * 2048 + 1 * k.val = k.val; rw [h1, Nat.zero_mul, Nat.zero_add, Nat.one_mul]

/-- Entry `q` of window 5's one-row block is the two biases' sum at column `b`. -/
theorem brow_bgx_bgh (c : Dev nD) (t : Fin cfg0.N) (q : Fin 256) (b : Fin 2048) (J : Nat)
    (h0 : win0_5.index t (0 : Fin 2) = 0) (h1 : win0_5.index t (1 : Fin 2) = J) (hb : b.val = J * 256 + q.val) :
    (iblk m c 5 t : FVec Ideal S1x256 .f32) (ix2 (0 : Fin 1) q) = bgx m c (ix1 b) + bgh m c (ix1 b) := by
  unfold iblk
  rw [View.read_apply]
  show (V m c main_v11 : S1x2048.Idx → EReal) _ = _
  refine Eq.trans (congrArg (V m c main_v11 : S1x2048.Idx → EReal) (funext fun ax => Fin.ext ?_)) (staged_bias_bgx_bgh m c b)
  match ax with
  | ⟨0, _⟩ => show win0_5.index t (0 : Fin 2) * 1 + 1 * 0 = 0; rw [h0]
  | ⟨1, _⟩ => show win0_5.index t (1 : Fin 2) * 256 + 1 * q.val = b.val; rw [h1, hb, Nat.one_mul]

/-- Entry `q` of window 8's one-row block is the two biases' sum at column `b`. -/
theorem brow_bix_bih (c : Dev nD) (t : Fin cfg0.N) (q : Fin 256) (b : Fin 2048) (J : Nat)
    (h0 : win0_8.index t (0 : Fin 2) = 0) (h1 : win0_8.index t (1 : Fin 2) = J) (hb : b.val = J * 256 + q.val) :
    (iblk m c 8 t : FVec Ideal S1x256 .f32) (ix2 (0 : Fin 1) q) = bix m c (ix1 b) + bih m c (ix1 b) := by
  unfold iblk
  rw [View.read_apply]
  show (V m c main_v13 : S1x2048.Idx → EReal) _ = _
  refine Eq.trans (congrArg (V m c main_v13 : S1x2048.Idx → EReal) (funext fun ax => Fin.ext ?_)) (staged_bias_bix_bih m c b)
  match ax with
  | ⟨0, _⟩ => show win0_8.index t (0 : Fin 2) * 1 + 1 * 0 = 0; rw [h0]
  | ⟨1, _⟩ => show win0_8.index t (1 : Fin 2) * 256 + 1 * q.val = b.val; rw [h1, hb, Nat.one_mul]

/-- Entry `q` of window 11's one-row block is the two biases' sum at column `b`. -/
theorem brow_bfx_bfh (c : Dev nD) (t : Fin cfg0.N) (q : Fin 256) (b : Fin 2048) (J : Nat)
    (h0 : win0_11.index t (0 : Fin 2) = 0) (h1 : win0_11.index t (1 : Fin 2) = J) (hb : b.val = J * 256 + q.val) :
    (iblk m c 11 t : FVec Ideal S1x256 .f32) (ix2 (0 : Fin 1) q) = bfx m c (ix1 b) + bfh m c (ix1 b) := by
  unfold iblk
  rw [View.read_apply]
  show (V m c main_v15 : S1x2048.Idx → EReal) _ = _
  refine Eq.trans (congrArg (V m c main_v15 : S1x2048.Idx → EReal) (funext fun ax => Fin.ext ?_)) (staged_bias_bfx_bfh m c b)
  match ax with
  | ⟨0, _⟩ => show win0_11.index t (0 : Fin 2) * 1 + 1 * 0 = 0; rw [h0]
  | ⟨1, _⟩ => show win0_11.index t (1 : Fin 2) * 256 + 1 * q.val = b.val; rw [h1, hb, Nat.one_mul]

/-- Entry `q` of window 14's one-row block is the two biases' sum at column `b`. -/
theorem brow_box_boh (c : Dev nD) (t : Fin cfg0.N) (q : Fin 256) (b : Fin 2048) (J : Nat)
    (h0 : win0_14.index t (0 : Fin 2) = 0) (h1 : win0_14.index t (1 : Fin 2) = J) (hb : b.val = J * 256 + q.val) :
    (iblk m c 14 t : FVec Ideal S1x256 .f32) (ix2 (0 : Fin 1) q) = box m c (ix1 b) + boh m c (ix1 b) := by
  unfold iblk
  rw [View.read_apply]
  show (V m c main_v17 : S1x2048.Idx → EReal) _ = _
  refine Eq.trans (congrArg (V m c main_v17 : S1x2048.Idx → EReal) (funext fun ax => Fin.ext ?_)) (staged_bias_box_boh m c b)
  match ax with
  | ⟨0, _⟩ => show win0_14.index t (0 : Fin 2) * 1 + 1 * 0 = 0; rw [h0]
  | ⟨1, _⟩ => show win0_14.index t (1 : Fin 2) * 256 + 1 * q.val = b.val; rw [h1, hb, Nat.one_mul]

end Cert.KernelIdeal.Blocks

end
-- ==== Proof.KernelWhole.lean ====
/-
  From tiles to the two result arrays.

  Grid point `t` writes back, into each result, the tile it computed. Entry `(p, q)` of that tile sits in the array at
  row `a = 512·i + p` and column `b = 256·j + q`, where `(i, j)` is the point's block index; every block the point
  loaded is the matching rows of an argument (the block reads), so the tile's entry is the whole function's value at
  `(a, b)`: the point writes block `t` of `cellOut`, respectively `hiddenOut` (`flushed16_eq`, `flushed15_eq`).

  The 64 tiles cover each [4096, 2048] result: row `r` lies in tile row `r / 512`, column `s` in tile column `s / 256`,
  and every pair of tile indices below 8 is some grid point's (`cover15`, `cover16`). An array all of whose indices
  are covered by write-backs of blocks of one function ends holding that function (`final15`, `final16`), and the
  kernel's run ends with the two results at `hiddenOut` and `cellOut` of the arguments as launched, the arguments
  unchanged (`run`).
-/
import proofs.«126220_j31129922961925_2_alg».proof.Proof.Gen.KernelIdeal.Value
import proofs.«126220_j31129922961925_2_alg».proof.Proof.KernelTile
import proofs.«126220_j31129922961925_2_alg».proof.Proof.KernelBlocks

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Value Cert.KernelIdeal.Blocks Cert.Lstm

variable (m : (ℓ : Loc nD τ sig) → Buf (Elt Ideal) ℓ) (ρ : Dev nD → PrngReg)

/-- The new cell state of the arguments as launched. -/
def cellOut (c : Dev nD) : Act :=
  cellArr (xIn m c) (hIn m c) (cIn m c) (wgx m c) (bgx m c) (wgh m c) (bgh m c) (wix m c) (bix m c) (wih m c) (bih m c) (wfx m c) (bfx m c) (wfh m c) (bfh m c)

/-- The new hidden state of the arguments as launched. -/
def hiddenOut (c : Dev nD) : Act :=
  hiddenArr (xIn m c) (hIn m c) (cIn m c) (wgx m c) (bgx m c) (wgh m c) (bgh m c) (wix m c) (bix m c) (wih m c) (bih m c) (wfx m c) (bfx m c) (wfh m c) (bfh m c) (wox m c) (box m c) (woh m c) (boh m c)

/-! ## What a grid point writes back -/

/-- Point `t` writes block `t` of `cellOut` into the second result. -/
theorem flushed16_eq (c : Dev nD) (t : Fin cfg0.N) :
    (dats m 0 c).flushed 16 t = ((cfg0.win 16).blk t).view.read (Elt Ideal) (cellOut m c) := by
  rw [Value.flushed16]
  refine funext fun (y : S512x256.Idx) => ?_
  obtain ⟨p, q, rfl⟩ : ∃ (p : Fin 512) (q : Fin 256), y = ix2 p q := ⟨y 0, y 1, eq_ix2 y⟩
  obtain ⟨hI, hJ, e16_0, e16_1, e0_0, e0_1, e1_0, e1_1, e2_0, e2_1⟩ := index_facts t
  obtain ⟨w3_0, w3_1, w4_0, w4_1, w6_0, w6_1, w7_0, w7_1, w9_0, w9_1, w10_0, w10_1, w12_0, w12_1, w13_0, w13_1⟩ := index_facts_weights t
  obtain ⟨b5_0, b5_1, b8_0, b8_1, b11_0, b11_1, b14_0, b14_1⟩ := index_facts_biases t
  obtain ⟨a, ha⟩ : ∃ a : Fin 4096, a.val = win0_15.index t (0 : Fin 2) * 512 + p.val :=
    ⟨⟨_, row_lt _ _ hI p.isLt⟩, rfl⟩
  obtain ⟨b, hb⟩ : ∃ b : Fin 2048, b.val = win0_15.index t (1 : Fin 2) * 256 + q.val :=
    ⟨⟨_, col_lt _ _ hJ q.isLt⟩, rfl⟩
  have hemb : ((cfg0.win 16).blk t).view.emb (ix2 p q) = ix2 a b := funext fun ax => Fin.ext (by
    match ax with
    | ⟨0, _⟩ => show win0_16.index t (0 : Fin 2) * 512 + 1 * p.val = a.val; rw [e16_0, ha, Nat.one_mul]
    | ⟨1, _⟩ => show win0_16.index t (1 : Fin 2) * 256 + 1 * q.val = b.val; rw [e16_1, hb, Nat.one_mul])
  show out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p q) = cellOut m c (((cfg0.win 16).blk t).view.emb (ix2 p q))
  rw [hemb]
  refine (congrFun (Tile.out16_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (ix2 p q)).trans ?_
  refine (Tile.cellTile_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p q).trans ?_
  unfold cellOut
  rw [cellArr_apply]
  exact cellB_eq (fun k => rows_xIn m c t p k a _ e0_0 e0_1 ha) (fun k => rows_hIn m c t p k a _ e1_0 e1_1 ha)
    (tile_c m c t p q a b _ _ e2_0 e2_1 ha hb)
    (fun k => wrows_wgx m c t q k b _ w3_0 w3_1 hb) (fun k => wrows_wgh m c t q k b _ w4_0 w4_1 hb)
    (brow_bgx_bgh m c t q b _ b5_0 b5_1 hb)
    (fun k => wrows_wix m c t q k b _ w6_0 w6_1 hb) (fun k => wrows_wih m c t q k b _ w7_0 w7_1 hb)
    (brow_bix_bih m c t q b _ b8_0 b8_1 hb)
    (fun k => wrows_wfx m c t q k b _ w9_0 w9_1 hb) (fun k => wrows_wfh m c t q k b _ w10_0 w10_1 hb)
    (brow_bfx_bfh m c t q b _ b11_0 b11_1 hb)

/-- Point `t` writes block `t` of `hiddenOut` into the first result. -/
theorem flushed15_eq (c : Dev nD) (t : Fin cfg0.N) :
    (dats m 0 c).flushed 15 t = ((cfg0.win 15).blk t).view.read (Elt Ideal) (hiddenOut m c) := by
  rw [Value.flushed15]
  refine funext fun (y : S512x256.Idx) => ?_
  obtain ⟨p, q, rfl⟩ : ∃ (p : Fin 512) (q : Fin 256), y = ix2 p q := ⟨y 0, y 1, eq_ix2 y⟩
  obtain ⟨hI, hJ, e16_0, e16_1, e0_0, e0_1, e1_0, e1_1, e2_0, e2_1⟩ := index_facts t
  obtain ⟨w3_0, w3_1, w4_0, w4_1, w6_0, w6_1, w7_0, w7_1, w9_0, w9_1, w10_0, w10_1, w12_0, w12_1, w13_0, w13_1⟩ := index_facts_weights t
  obtain ⟨b5_0, b5_1, b8_0, b8_1, b11_0, b11_1, b14_0, b14_1⟩ := index_facts_biases t
  obtain ⟨a, ha⟩ : ∃ a : Fin 4096, a.val = win0_15.index t (0 : Fin 2) * 512 + p.val :=
    ⟨⟨_, row_lt _ _ hI p.isLt⟩, rfl⟩
  obtain ⟨b, hb⟩ : ∃ b : Fin 2048, b.val = win0_15.index t (1 : Fin 2) * 256 + q.val :=
    ⟨⟨_, col_lt _ _ hJ q.isLt⟩, rfl⟩
  have hemb : ((cfg0.win 15).blk t).view.emb (ix2 p q) = ix2 a b := funext fun ax => Fin.ext (by
    match ax with
    | ⟨0, _⟩ => show win0_15.index t (0 : Fin 2) * 512 + 1 * p.val = a.val; rw [ha, Nat.one_mul]
    | ⟨1, _⟩ => show win0_15.index t (1 : Fin 2) * 256 + 1 * q.val = b.val; rw [hb, Nat.one_mul])
  show out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p q) = hiddenOut m c (((cfg0.win 15).blk t).view.emb (ix2 p q))
  rw [hemb]
  refine (congrFun (Tile.out15_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (ix2 p q)).trans ?_
  refine (Tile.hiddenTile_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p q).trans ?_
  unfold hiddenOut
  rw [hiddenArr_apply]
  exact hiddenB_eq (fun k => rows_xIn m c t p k a _ e0_0 e0_1 ha) (fun k => rows_hIn m c t p k a _ e1_0 e1_1 ha)
    (tile_c m c t p q a b _ _ e2_0 e2_1 ha hb)
    (fun k => wrows_wgx m c t q k b _ w3_0 w3_1 hb) (fun k => wrows_wgh m c t q k b _ w4_0 w4_1 hb)
    (brow_bgx_bgh m c t q b _ b5_0 b5_1 hb)
    (fun k => wrows_wix m c t q k b _ w6_0 w6_1 hb) (fun k => wrows_wih m c t q k b _ w7_0 w7_1 hb)
    (brow_bix_bih m c t q b _ b8_0 b8_1 hb)
    (fun k => wrows_wfx m c t q k b _ w9_0 w9_1 hb) (fun k => wrows_wfh m c t q k b _ w10_0 w10_1 hb)
    (brow_bfx_bfh m c t q b _ b11_0 b11_1 hb)
    (fun k => wrows_wox m c t q k b _ w12_0 w12_1 hb) (fun k => wrows_woh m c t q k b _ w13_0 w13_1 hb)
    (brow_box_boh m c t q b _ b14_0 b14_1 hb)

/-! ## The tiles cover the results -/

/-- An index is in point `t`'s block of the first result iff each coordinate is in the block's range on its axis. -/
theorem mem_blk15 (t : Fin cfg0.N) (i : S4096x2048.Idx) :
    i ∈ ((cfg0.win 15).blk t).view.set ↔ ∀ a : Fin 2, win0_15.index t a * S512x256.size a ≤ (i a).val
      ∧ (i a).val < win0_15.index t a * S512x256.size a + S512x256.size a := by
  show i ∈ ((View.whole main_v18_0).slice (win0_15.rect t)).set ↔ _
  rw [View.set_slice_whole, Rect.mem_set_unit]
  exact Iff.rfl

/-- The same for the second result. -/
theorem mem_blk16 (t : Fin cfg0.N) (i : S4096x2048.Idx) :
    i ∈ ((cfg0.win 16).blk t).view.set ↔ ∀ a : Fin 2, win0_16.index t a * S512x256.size a ≤ (i a).val
      ∧ (i a).val < win0_16.index t a * S512x256.size a + S512x256.size a := by
  show i ∈ ((View.whole main_v18_1).slice (win0_16.rect t)).set ↔ _
  rw [View.set_slice_whole, Rect.mem_set_unit]
  exact Iff.rfl

/-- Every index of the first result is in the block of the point whose tile indices are its row over 512 and its column
    over 256. -/
theorem cover15 (i : S4096x2048.Idx) :
    ∃ t : Fin cfg0.N, (cfg0.win 15).flush t = true ∧ i ∈ ((cfg0.win 15).blk t).view.set := by
  have hi0 : (i 0).val < 4096 := (i 0).isLt
  have hi1 : (i 1).val < 2048 := (i 1).isLt
  obtain ⟨t, ht⟩ := index_onto ⟨(i 0).val / 512, by omega⟩ ⟨(i 1).val / 256, by omega⟩
  have q0 : win0_15.index t (0 : Fin 2) = (i 0).val / 512 := congrFun ht 0
  have q1 : win0_15.index t (1 : Fin 2) = (i 1).val / 256 := congrFun ht 1
  refine ⟨t, flush0_15 t, ?_⟩
  rw [mem_blk15]
  intro a
  match a with
  | ⟨0, _⟩ =>
    show win0_15.index t (0 : Fin 2) * 512 ≤ (i 0).val ∧ (i 0).val < win0_15.index t (0 : Fin 2) * 512 + 512
    omega
  | ⟨1, _⟩ =>
    show win0_15.index t (1 : Fin 2) * 256 ≤ (i 1).val ∧ (i 1).val < win0_15.index t (1 : Fin 2) * 256 + 256
    omega

/-- The same for the second result. -/
theorem cover16 (i : S4096x2048.Idx) :
    ∃ t : Fin cfg0.N, (cfg0.win 16).flush t = true ∧ i ∈ ((cfg0.win 16).blk t).view.set := by
  have hi0 : (i 0).val < 4096 := (i 0).isLt
  have hi1 : (i 1).val < 2048 := (i 1).isLt
  obtain ⟨t, ht⟩ := index_onto ⟨(i 0).val / 512, by omega⟩ ⟨(i 1).val / 256, by omega⟩
  have q0 : win0_15.index t (0 : Fin 2) = (i 0).val / 512 := congrFun ht 0
  have q1 : win0_15.index t (1 : Fin 2) = (i 1).val / 256 := congrFun ht 1
  obtain ⟨_, _, e16_0, e16_1, _⟩ := index_facts t
  refine ⟨t, flush0_16 t, ?_⟩
  rw [mem_blk16]
  intro a
  match a with
  | ⟨0, _⟩ =>
    show win0_16.index t (0 : Fin 2) * 512 ≤ (i 0).val ∧ (i 0).val < win0_16.index t (0 : Fin 2) * 512 + 512
    omega
  | ⟨1, _⟩ =>
    show win0_16.index t (1 : Fin 2) * 256 ≤ (i 1).val ∧ (i 1).val < win0_16.index t (1 : Fin 2) * 256 + 256
    omega

/-! ## The arrays after the run -/

/-- The first result ends holding the new hidden state. -/
theorem final15 (c : Dev nD) : (dats m 0 c).arrAt 15 cfg0.N = hiddenOut m c :=
  (dats m 0 c).arrAt_eq_of_cover 15 (hiddenOut m c) (fun t _ => flushed15_eq m c t) cover15

/-- The second result ends holding the new cell state. -/
theorem final16 (c : Dev nD) : (dats m 0 c).arrAt 16 cfg0.N = cellOut m c :=
  (dats m 0 c).arrAt_eq_of_cover 16 (cellOut m c) (fun t _ => flushed16_eq m c t) cover16

/-- The kernel's run: both results at their functions of the arguments, the arguments unchanged. -/
theorem run : θ_run defs (onTc (τ := τ) (main (F := Ideal))) ⟨m, fun _ => 0, ρ⟩ fun r => ∀ c : Dev nD,
      r.2.mem ((c : Thread nD τ).loc main_v18_0) = hiddenOut m c
      ∧ r.2.mem ((c : Thread nD τ).loc main_v18_1) = cellOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨(h c).1.trans (final15 m c), (h c).2.1.trans (final16 m c), (h c).2.2⟩)
    (Value.run_blocks m ρ)

end Cert.KernelIdeal.Whole

end
-- ==== Proof.RefValue.lean ====
/-
  What the reference computes, as the specification's two functions.

  The reference applies eight linear layers `v ↦ v @ Wᵀ + b`: it transposes the weight matrix, multiplies, and adds
  the bias broadcast over the rows. Entry `(a, b)` of one layer is `Σₖ v[a,k]·W[b,k] + bias[b]` (`linear_apply`: the
  transpose turns the product's `Wᵀ[k,b]` back into `W[b,k]`). It spells the logistic function out as
  `1 / (1 + e⁻ᵛ)`, which on the extended reals is that function's definition (`hostSigmoid_apply`). A gate is the sum
  of its two layers — each product with its own bias — and `Lstm.pre_of_two_linears` regroups that into the
  specification's arrangement. So the second result is `Lstm.cellArr` and the first `Lstm.hiddenArr` of the arguments.
-/
import proofs.«126220_j31129922961925_2_alg».proof.Proof.Gen.ReferenceIdeal.Read
import proofs.«126220_j31129922961925_2_alg».proof.Proof.LstmSpec

noncomputable section

open Idealize.ShloMosaic Idealize.ShloMosaic.ValueIdx
open scoped BigOperators

namespace Cert.ReferenceIdeal.RefValue

open Cert.ReferenceIdeal Cert.ReferenceIdeal.Gen Cert.ReferenceIdeal.Read Cert.Lstm

/-- One linear layer at `(a, b)`: row `a` of the operand against row `b` of the weights, plus the bias at `b`. -/
theorem linear_apply (x : FVec Ideal S4096x2048 .f32) (W : FVec Ideal S2048x2048 .f32) (bias : FVec Ideal S2048 .f32)
    (a : Fin 4096) (b : Fin 2048) :
    val_main_v4 (F := Ideal) x W bias (ix2 a b) = (∑ k : Fin 2048, x (ix2 a k) * W (ix2 b k)) + bias (ix1 b) := by
  have hl : ∀ k : Fin 2048, lidx_main_v1 (ix2 a b) k = ix2 a k := fun k => funext fun ax => Fin.ext (by
    match ax with
    | ⟨0, _⟩ => rfl
    | ⟨1, _⟩ => rfl)
  have hr : ∀ k : Fin 2048, idx_main_v0 (ridx_main_v1 (ix2 a b) k) = ix2 b k := fun k => funext fun ax => Fin.ext (by
    match ax with
    | ⟨0, _⟩ => rfl
    | ⟨1, _⟩ => rfl)
  have hb : idx_main_v2 (idx_main_v3 (ix2 a b)) = ix1 b := funext fun ax => Fin.ext (by
    match ax with
    | ⟨0, _⟩ => rfl)
  rw [val_main_v4_apply, val_main_v1_apply, val_main_v3_apply, val_main_v2_apply, hb]
  simp only [val_main_v0_apply, hl, hr]
  rfl

/-- The logistic function as the reference spells it: the word of `1.0` broadcast, over one plus the exponential of the
    negation. -/
def hostSigmoid (v : FVec Ideal S4096x2048 .f32) : FVec Ideal S4096x2048 .f32 :=
  Host.divf (F := Ideal) (broadcastInDim S4096x2048 ![] bcast_S_S4096x2048 (constant (F := Ideal) S_ .f32 0x3F800000#32))
    (addf (broadcastInDim S4096x2048 ![] bcast_S_S4096x2048 (constant (F := Ideal) S_ .f32 0x3F800000#32))
      (Host.exp (F := Ideal) (Host.negf (F := Ideal) v)))

theorem hostSigmoid_apply (v : FVec Ideal S4096x2048 .f32) (i : S4096x2048.Idx) :
    hostSigmoid v i = Ideal.logistic (v i) := by
  have hone : broadcastInDim S4096x2048 ![] bcast_S_S4096x2048 (constant (F := Ideal) S_ .f32 0x3F800000#32) i
      = Ideal.ofBits .f32 0x3F800000#32 :=
    broadcastInDim_apply _ bcast_S_S4096x2048 (constant (F := Ideal) S_ .f32 0x3F800000#32) i ix0 (fun ax => ax.elim0)
  show Ideal.div (broadcastInDim S4096x2048 ![] bcast_S_S4096x2048 (constant (F := Ideal) S_ .f32 0x3F800000#32) i)
      (broadcastInDim S4096x2048 ![] bcast_S_S4096x2048 (constant (F := Ideal) S_ .f32 0x3F800000#32) i + Ideal.exp (-(v i))) = _
  rw [hone]
  exact logistic_spelt_out (v i)

/-- The reference's second result is the specification's new cell state. -/
theorem cell_eq (x0 x1 x2 : FVec Ideal S4096x2048 .f32) (x3 : FVec Ideal S2048x2048 .f32) (x4 : FVec Ideal S2048 .f32)
    (x5 : FVec Ideal S2048x2048 .f32) (x6 : FVec Ideal S2048 .f32) (x7 : FVec Ideal S2048x2048 .f32) (x8 : FVec Ideal S2048 .f32)
    (x9 : FVec Ideal S2048x2048 .f32) (x10 : FVec Ideal S2048 .f32) (x11 : FVec Ideal S2048x2048 .f32) (x12 : FVec Ideal S2048 .f32)
    (x13 : FVec Ideal S2048x2048 .f32) (x14 : FVec Ideal S2048 .f32) :
    val_main_v48 (F := Ideal) x0 x1 x2 x3 x4 x5 x6 x7 x8 x9 x10 x11 x12 x13 x14
      = cellArr x0 x1 x2 x3 x4 x5 x6 x7 x8 x9 x10 x11 x12 x13 x14 := by
  funext i
  obtain ⟨a, b, rfl⟩ : ∃ (a : Fin 4096) (b : Fin 2048), i = ix2 a b := ⟨i 0, i 1, eq_ix2 i⟩
  rw [cellArr_apply]
  show hostSigmoid (addf (val_main_v4 (F := Ideal) x0 x11 x12) (val_main_v4 (F := Ideal) x1 x13 x14)) (ix2 a b) * x2 (ix2 a b)
      + hostSigmoid (addf (val_main_v4 (F := Ideal) x0 x7 x8) (val_main_v4 (F := Ideal) x1 x9 x10)) (ix2 a b)
        * Ideal.tanh (val_main_v4 (F := Ideal) x0 x3 x4 (ix2 a b) + val_main_v4 (F := Ideal) x1 x5 x6 (ix2 a b)) = _
  rw [hostSigmoid_apply, hostSigmoid_apply]
  show Ideal.logistic (val_main_v4 (F := Ideal) x0 x11 x12 (ix2 a b) + val_main_v4 (F := Ideal) x1 x13 x14 (ix2 a b)) * x2 (ix2 a b)
      + Ideal.logistic (val_main_v4 (F := Ideal) x0 x7 x8 (ix2 a b) + val_main_v4 (F := Ideal) x1 x9 x10 (ix2 a b))
        * Ideal.tanh (val_main_v4 (F := Ideal) x0 x3 x4 (ix2 a b) + val_main_v4 (F := Ideal) x1 x5 x6 (ix2 a b)) = _
  rw [linear_apply x0 x11 x12, linear_apply x1 x13 x14, linear_apply x0 x7 x8, linear_apply x1 x9 x10,
    linear_apply x0 x3 x4, linear_apply x1 x5 x6,
    pre_of_two_linears x0 x1 x11 x13 x12 x14, pre_of_two_linears x0 x1 x7 x9 x8 x10, pre_of_two_linears x0 x1 x3 x5 x4 x6]
  rfl

/-- The reference's first result is the specification's new hidden state. -/
theorem hidden_eq (x0 x1 x2 : FVec Ideal S4096x2048 .f32) (x3 : FVec Ideal S2048x2048 .f32) (x4 : FVec Ideal S2048 .f32)
    (x5 : FVec Ideal S2048x2048 .f32) (x6 : FVec Ideal S2048 .f32) (x7 : FVec Ideal S2048x2048 .f32) (x8 : FVec Ideal S2048 .f32)
    (x9 : FVec Ideal S2048x2048 .f32) (x10 : FVec Ideal S2048 .f32) (x11 : FVec Ideal S2048x2048 .f32) (x12 : FVec Ideal S2048 .f32)
    (x13 : FVec Ideal S2048x2048 .f32) (x14 : FVec Ideal S2048 .f32) (x15 : FVec Ideal S2048x2048 .f32) (x16 : FVec Ideal S2048 .f32)
    (x17 : FVec Ideal S2048x2048 .f32) (x18 : FVec Ideal S2048 .f32) :
    val_main_v67 (F := Ideal) x0 x1 x2 x3 x4 x5 x6 x7 x8 x9 x10 x11 x12 x13 x14 x15 x16 x17 x18
      = hiddenArr x0 x1 x2 x3 x4 x5 x6 x7 x8 x9 x10 x11 x12 x13 x14 x15 x16 x17 x18 := by
  funext i
  obtain ⟨a, b, rfl⟩ : ∃ (a : Fin 4096) (b : Fin 2048), i = ix2 a b := ⟨i 0, i 1, eq_ix2 i⟩
  rw [hiddenArr_apply]
  show hostSigmoid (addf (val_main_v4 (F := Ideal) x0 x15 x16) (val_main_v4 (F := Ideal) x1 x17 x18)) (ix2 a b)
      * Ideal.tanh (val_main_v48 (F := Ideal) x0 x1 x2 x3 x4 x5 x6 x7 x8 x9 x10 x11 x12 x13 x14 (ix2 a b)) = _
  rw [hostSigmoid_apply, cell_eq, cellArr_apply]
  show Ideal.logistic (val_main_v4 (F := Ideal) x0 x15 x16 (ix2 a b) + val_main_v4 (F := Ideal) x1 x17 x18 (ix2 a b)) * _ = _
  rw [linear_apply x0 x15 x16, linear_apply x1 x17 x18, pre_of_two_linears x0 x1 x15 x17 x16 x18]
  rfl

end Cert.ReferenceIdeal.RefValue

end
-- ==== Proof.lean ====
/-
  An LSTM cell in one fused grid kernel against the same cell written with eight linear layers.

  Both programs compute, from the input `x`, the previous hidden state `h` and cell state `c` ([4096, 2048] each) and
  per gate two [2048, 2048] weight matrices and two [2048] biases,
      c' = σ(f)·c + σ(i)·tanh(g),   h' = σ(o)·tanh(c'),
  where a gate's pre-activation at row `a`, column `b` is `Σₖ x[a,k]·Wx[b,k] + Σₖ h[a,k]·Wh[b,k] + bx[b] + bh[b]` and σ
  is the logistic function (Proof/LstmSpec.lean states this once, as `Lstm.cellArr` and `Lstm.hiddenArr`).

  The kernel tiles the results 8 × 8 into [512, 256] tiles; per tile it contracts 512 rows of `x` and of `h` against
  256 rows of each weight matrix, adds the gate's two biases (summed beforehand into one row) and applies the
  nonlinearities entry by entry. Its narrowing of `x`, `h` and the weights to a shorter float format is the identity on
  extended reals. The reference adds each bias to its own product before adding the two, and spells the logistic
  function out as `1 / (1 + e⁻ᵛ)`. The two differ by the grouping of a four-term sum and by that spelling: the first is
  commutativity and associativity of addition on the extended reals, which needs no finiteness, and the second is the
  logistic function's definition. So the precondition is never opened.

  Proof/KernelTile.lean reads a tile entry; Proof/KernelBlocks.lean reads each loaded block as rows of an argument;
  Proof/KernelWhole.lean puts the tiles together into the two arrays and states the kernel's run; Proof/RefValue.lean
  reads the reference's two results. Here: the three frames (the two kernels' are the generated frame certificates,
  the reference's is its generated run with the results dropped), the idealization's ledger, which is empty, and the
  equality of results.
-/
import proofs.«126220_j31129922961925_2_alg».proof.Defs
import proofs.«126220_j31129922961925_2_alg».proof.Proof.Gen.Kernel
import proofs.«126220_j31129922961925_2_alg».proof.Proof.Gen.Kernel.Skeleton
import proofs.«126220_j31129922961925_2_alg».proof.Proof.Gen.Kernel.Launch
import proofs.«126220_j31129922961925_2_alg».proof.Proof.Gen.Kernel.Points
import proofs.«126220_j31129922961925_2_alg».proof.Proof.Gen.Kernel.Frame
import proofs.«126220_j31129922961925_2_alg».proof.Proof.Gen.KernelIdeal
import proofs.«126220_j31129922961925_2_alg».proof.Proof.Gen.KernelIdeal.Skeleton
import proofs.«126220_j31129922961925_2_alg».proof.Proof.Gen.KernelIdeal.Launch
import proofs.«126220_j31129922961925_2_alg».proof.Proof.Gen.KernelIdeal.Points
import proofs.«126220_j31129922961925_2_alg».proof.Proof.Gen.KernelIdeal.Frame
import proofs.«126220_j31129922961925_2_alg».proof.Proof.Gen.ReferenceIdeal
import proofs.«126220_j31129922961925_2_alg».proof.Proof.Gen.Pre_finite_inputs
import proofs.«126220_j31129922961925_2_alg».proof.Proof.Gen.KernelIdeal.Value
import proofs.«126220_j31129922961925_2_alg».proof.Proof.Gen.ReferenceIdeal.Run
import proofs.«126220_j31129922961925_2_alg».proof.Proof.Gen.ReferenceIdeal.Read
import proofs.«126220_j31129922961925_2_alg».proof.Proof.KernelWhole
import proofs.«126220_j31129922961925_2_alg».proof.Proof.RefValue
import Idealize.ShloMosaic.Adequacy
import Idealize.ShloMosaic.Init

noncomputable section

namespace Cert.Proof

open Idealize.ShloMosaic Idealize.SL.Sem Cert.Kernel

namespace LstmClaims

/-- The word-level kernel terminates without a fault and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of array operations: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories that agree on the nineteen arguments, the kernel ends with the new hidden state and the new cell
    state of its arguments, and the reference with the same two functions of its own arguments, which are the same
    arrays. -/
theorem algebraic : Cert.algebraic_KernelIdeal_ReferenceIdeal := by
  intro m ρ m' ρ' _ hagree
  refine ⟨fun c => Cert.KernelIdeal.Whole.hiddenOut m c, fun c => Cert.KernelIdeal.Whole.cellOut m c,
    Cert.KernelIdeal.Whole.run m ρ, ?_⟩
  refine (θ_run Cert.ReferenceIdeal.defs _ _).mono (fun _ h c => ?_) (Cert.ReferenceIdeal.Value.run (F := Ideal) m' ρ')
  obtain ⟨e0, e1, e2, e3, e4, e5, e6, e7, e8, e9, e10, e11, e12, e13, e14, e15, e16, e17, e18⟩ := hagree c
  refine ⟨(h c).1.trans ?_, (h c).2.1.trans ?_, (h c).2.2⟩
  · rw [Cert.ReferenceIdeal.Read.val_main_v67_eq, Cert.ReferenceIdeal.RefValue.hidden_eq,
      e0, e1, e2, e3, e4, e5, e6, e7, e8, e9, e10, e11, e12, e13, e14, e15, e16, e17, e18]
    rfl
  · rw [Cert.ReferenceIdeal.Read.val_main_v48_eq, Cert.ReferenceIdeal.RefValue.cell_eq,
      e0, e1, e2, e3, e4, e5, e6, e7, e8, e9, e10, e11, e12, e13, e14]
    rfl

end LstmClaims

theorem claim : Cert.Claim :=
  ⟨Cert.Kernel.Gen.facts, Cert.KernelIdeal.Gen.facts, Cert.ReferenceIdeal.Gen.facts, Cert.Pre_finite_inputs.Gen.facts,
    LstmClaims.frame_k, LstmClaims.frame_ki, LstmClaims.frame_ri, LstmClaims.preserves, LstmClaims.algebraic⟩

end Cert.Proof

end
